-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S64x1024 : Shape := ⟨2, ![64, 1024]⟩
abbrev S64 : Shape := ⟨1, ![64]⟩
abbrev S64x64 : Shape := ⟨2, ![64, 64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  reducesTo_S_S_d : S_.ReducesTo [] S_

variable [Facts]

def fn_part1 {F : FTy → Type} [FloatOps F] (main_arg4 : FVec F S_ .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S8192x1024 .f32) (main_arg1 : FVec F S64x1024 .f32) (main_arg2 : FVec F S64 .f32) (main_arg3 : FVec F S64x64 .f32) (main_arg4 : FVec F S_ .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8192x1024 : Shape := ⟨2, ![8192, 1024]⟩
abbrev S64x1024 : Shape := ⟨2, ![64, 1024]⟩
abbrev S64 : Shape := ⟨1, ![64]⟩
abbrev S64x64 : Shape := ⟨2, ![64, 64]⟩
abbrev S_ : Shape := ⟨0, ![]⟩
abbrev S1x64 : Shape := ⟨2, ![1, 64]⟩
abbrev S1x1 : Shape := ⟨2, ![1, 1]⟩
abbrev S8192x128 : Shape := ⟨2, ![8192, 128]⟩
abbrev S1024x1024 : Shape := ⟨2, ![1024, 1024]⟩
abbrev S1024x128 : Shape := ⟨2, ![1024, 128]⟩
abbrev S1024x64 : Shape := ⟨2, ![1024, 64]⟩
abbrev S8192x8192 : Shape := ⟨2, ![8192, 8192]⟩
abbrev S2048x128 : Shape := ⟨2, ![2048, 128]⟩
abbrev S1024x2048 : Shape := ⟨2, ![1024, 2048]⟩
abbrev S2048x64 : Shape := ⟨2, ![2048, 64]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S64x1024, .f32⟩
  | .hbm, ⟨2, _⟩ => ⟨S64, .f32⟩
  | .hbm, ⟨3, _⟩ => ⟨S64x64, .f32⟩
  | .hbm, ⟨4, _⟩ => ⟨S_, .f32⟩
  | .hbm, ⟨5, _⟩ => ⟨S1x64, .f32⟩
  | .hbm, ⟨6, _⟩ => ⟨S1x1, .f32⟩
  | .hbm, ⟨7, _⟩ => ⟨S8192x128, .f32⟩
  | .hbm, ⟨8, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S64x1024, .f32⟩
  | .local _ .vmem, ⟨3, _⟩ => ⟨S1x64, .f32⟩
  | .local _ .vmem, ⟨4, _⟩ => ⟨S64x64, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S2048x128, .f32⟩
  | .local _ .vmem, ⟨10, _⟩ => ⟨S2048x128, .f32⟩
  | .local _ .vmem, ⟨11, _⟩ => ⟨S1x1, .f32⟩
  | .local _ .vmem, ⟨12, _⟩ => ⟨S1024x2048, .f32⟩
  | .local _ .vmem, ⟨13, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64_S1x64 : S64.ShapeCasts S1x64
  shapeCasts_S_S1x1 : S_.ShapeCasts S1x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  concatenates_S1024x64_S1024x64_S1024x128_d1 : Shape.Concatenates [S1024x64, S1024x64] S1024x128 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S1024x128_o0_64_S1024x64 : S1024x128.Slices ![0, 64] S1024x64
  slices_S2048x128_o0_0_S2048x64 : S2048x128.Slices ![0, 0] S2048x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x2048 : S1x1.Broadcasts S1024x2048
  inb_S1024x2048_S1024x2048_0_0 : ∀ a, (![0, 0] : Fin 2 → Nat) a + S1024x2048.size a ≤ S1024x2048.size a
  h_S1024x2048 : 0 < S1024x2048.numel
  dot_S1024x1024_S64x1024_S1024x64_1_1_0_0_n_n_wf : DotDims.WF S1024x1024 S64x1024 S1024x64 [1] [1] [0] [0] [] []
  dot_S1024x64_S64x64_S1024x64_1_0_0_1_n_n_wf : DotDims.WF S1024x64 S64x64 S1024x64 [1] [0] [0] [1] [] []
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x8192.size a
  hwx1_3 : ∀ i : grid1.Coords, EltTy.bits .f32 = 32 ∨ (Rect.block (s := S8192x8192) S1024x2048.size (cc1_transform_3 i) (hinb1_3 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S64x1024 : Shape := ⟨2, ![64, 1024]⟩
abbrev S64 : Shape := ⟨1, ![64]⟩
abbrev S64x64 : Shape := ⟨2, ![64, 64]⟩
abbrev S_ : Shape := ⟨0, ![]⟩
abbrev S1024x64 : Shape := ⟨2, ![1024, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S64x1024, .f32⟩
  | .hbm, ⟨2, _⟩ => ⟨S64, .f32⟩
  | .hbm, ⟨3, _⟩ => ⟨S64x64, .f32⟩
  | .hbm, ⟨4, _⟩ => ⟨S_, .f32⟩
  | .hbm, ⟨5, _⟩ => ⟨S1024x64, .f32⟩
  | .hbm, ⟨6, _⟩ => ⟨S8192x64, .f32⟩
  | .hbm, ⟨7, _⟩ => ⟨S1x64, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S64x8192, .f32⟩
  | .hbm, ⟨12, _⟩ => ⟨S8192x8192, .f32⟩
  | .hbm, ⟨13, _⟩ => ⟨S8192x8192, .f32⟩
  | .hbm, ⟨14, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S64x1024_S1024x64_1_0 : S64x1024.Transposes [1, 0] S1024x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  dot_S8192x1024_S1024x64_S8192x64_1_0_0_1_n_n_wf : DotDims.WF S8192x1024 S1024x64 S8192x64 [1] [0] [0] [1] [] []
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []

variable [Facts₀]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Body0.lean ====
/-
  The first kernel region (the projection kernel), at any float instance, for the program `Kernel`.

  At grid point t the body reads four whole staging buffers — the block of 1024 input rows, the 64 × 1024 weight, the
  1 × 64 bias row and the 64 × 64 compatibility matrix — and overwrites the whole 1024 × 128 output buffer with one
  pure function of them (the payload `k0_pay1`). Stated here at a parameter `V`, the contents of the core's arrays when
  the region is entered: each window's block at a point, what the body leaves in the output buffer, the body's triple,
  the proof data of the pipeline, and the body obligation at every point.
-/
import proofs.«120709_j50500225466438_2_alg».proof.Proof.Gen.Kernel.Launch
import proofs.«120709_j50500225466438_2_alg».proof.Proof.Gen.Kernel.Skeleton
import proofs.«120709_j50500225466438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: an unfetched point has the
    block index of the point before it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_0 : Rect S1024x1024 := Rect.unit (s := S1024x1024) ![0, 0] S1024x1024.size inb_S1024x1024_S1024x1024_0_0
abbrev r0_1 : Rect S64x1024 := Rect.unit (s := S64x1024) ![0, 0] S64x1024.size inb_S64x1024_S64x1024_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S1024x128 := Rect.unit (s := S1024x128) ![0, 0] S1024x128.size inb_S1024x128_S1024x128_0_0

/-! ## What the body leaves in the output window's buffer -/

/-- The output buffer after the body, from the four input blocks: its one store, as a piece. -/
def out0_4 (x0 : Vec F S1024x1024 .f32) (x1 : Vec F S64x1024 .f32) (x2 : Vec F S1x64 .f32) (x3 : Vec F S64x64 .f32) : Vec F S1024x128 .f32 :=
  View.canon [⟨r0_4, k0_pay1 (View.ld x0 r0_0) (View.ld x1 r0_1) (View.ld x2 r0_2) (View.ld x3 r0_3)⟩]

/-- The one store covers the buffer. -/
theorem cover0_4 (p0 : Vec F S1024x128 .f32) (y : S1024x128.Idx) :
    ∃ pc ∈ ([⟨r0_4, p0⟩] : List (View.Piece (Elt F) S1024x128 .f32)), y ∈ pc.1.set :=
  View.cover_of_tiled [⟨r0_4, p0⟩] S1024x128.size (by rfl) y

/-! ## The body's triple -/

set_option maxHeartbeats 1000000 in
/-- The body on whole staging buffers, the inputs' at contents `x0 … x3` and the output's at anything, runs to the
    continuation holding the inputs' as they were and the output's at `out0_4` of them. -/
theorem sound_kernel0 (c : Dev nD) (E : Set ℕ) (i : grid0.Coords)
    (arg1 : Memref sig .tc .vmem S1024x1024 .f32) (harg1 : arg1.IsWhole) (arg2 : Memref sig .tc .vmem S64x1024 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1024x128 .f32) (harg5 : arg5.IsWhole)
    (x0 : Vec F S1024x1024 .f32) (x1 : Vec F S64x1024 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the first pipeline on core `c`: the arrays as the region finds them; after the body at point `t`
    each input's buffer still at its block and the output's at `out0_4` of the input blocks; the invariant is the
    untouched rest (the scoped buffers no window stages, and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Body1.lean ====
/-
  The second kernel region (the bilinear kernel), at any float instance, for the program `Kernel`.

  At grid point t = (i, j) the body reads three whole staging buffers — a block of 1024 rows and a block of 2048 rows of
  the SAME 8192 × 128 intermediate array, and the 1 × 1 scalar — and overwrites the whole 1024 × 2048 output buffer with
  one pure function of them (the payload `k1_pay1`). Stated at a parameter `V`, the contents of the core's arrays when
  the region is entered. The two windows on the intermediate array only read it, so the pipeline holds it twice at
  complementary half shares, one per window.
-/
import proofs.«120709_j50500225466438_2_alg».proof.Proof.Gen.Kernel.Launch
import proofs.«120709_j50500225466438_2_alg».proof.Proof.Gen.Kernel.Skeleton
import proofs.«120709_j50500225466438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_0 : Rect S1024x128 := Rect.unit (s := S1024x128) ![0, 0] S1024x128.size inb_S1024x128_S1024x128_0_0
abbrev r1_1 : Rect S2048x128 := Rect.unit (s := S2048x128) ![0, 0] S2048x128.size inb_S2048x128_S2048x128_0_0
abbrev r1_2 : Rect S1x1 := Rect.unit (s := S1x1) ![0, 0] S1x1.size inb_S1x1_S1x1_0_0
abbrev r1_3 : Rect S1024x2048 := Rect.unit (s := S1024x2048) ![0, 0] S1024x2048.size inb_S1024x2048_S1024x2048_0_0

/-! ## What the body leaves in the output window's buffer -/

/-- The output buffer after the body, from the three input blocks: its one store, as a piece. -/
def out1_3 (x0 : Vec F S1024x128 .f32) (x1 : Vec F S2048x128 .f32) (x2 : Vec F S1x1 .f32) : Vec F S1024x2048 .f32 :=
  View.canon [⟨r1_3, k1_pay1 (View.ld x0 r1_0) (View.ld x1 r1_1) (View.ld x2 r1_2)⟩]

/-- The one store covers the buffer. -/
theorem cover1_3 (p0 : Vec F S1024x2048 .f32) (y : S1024x2048.Idx) :
    ∃ pc ∈ ([⟨r1_3, p0⟩] : List (View.Piece (Elt F) S1024x2048 .f32)), y ∈ pc.1.set :=
  View.cover_of_tiled [⟨r1_3, p0⟩] S1024x2048.size (by rfl) y

/-! ## The body's triple -/

set_option maxHeartbeats 1000000 in
/-- The body on whole staging buffers, the inputs' at contents `x0 x1 x2` and the output's at anything, runs to the
    continuation holding the inputs' as they were and the output's at `out1_3` of them. -/
theorem sound_kernel1 (c : Dev nD) (E : Set ℕ) (i : grid1.Coords)
    (arg2 : Memref sig .tc .vmem S1024x128 .f32) (harg2 : arg2.IsWhole) (arg3 : Memref sig .tc .vmem S2048x128 .f32) (harg3 : arg3.IsWhole)
    (arg4 : Memref sig .tc .vmem S1x1 .f32) (harg4 : arg4.IsWhole) (arg5 : Memref sig .tc .vmem S1024x2048 .f32) (harg5 : arg5.IsWhole)
    (x0 : Vec F S1024x128 .f32) (x1 : Vec F S2048x128 .f32) (x2 : Vec F S1x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__bilinear_kernel i arg2 harg2 arg3 harg3 arg4 harg4 arg5 harg5) K := by
  simp only [cc1__bilinear_kernel_eq_skeleton]; unfold cc1__bilinear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pipeline on core `c`: the arrays as the region finds them; after the body at point `t`
    each input's buffer still at its block and the output's at `out1_3` of the input blocks; the invariant is the
    untouched rest; nothing owed. The intermediate array is read through windows 0 and 1: window 0 holds the left half
    of its full share and window 1 the right half; the scalar's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The shares the pipeline holds its arrays at, window by window. -/
theorem share1_0 (c : Dev nD) : (dat1 V c).share 0 = fullShare.left := by unfold Dat.share; dsimp only [dat1]; rfl
theorem share1_1 (c : Dev nD) : (dat1 V c).share 1 = fullShare.right := by unfold Dat.share; dsimp only [dat1]; rfl
theorem share1_2 (c : Dev nD) : (dat1 V c).share 2 = fullShare := by unfold Dat.share; dsimp only [dat1]; rfl
theorem share1_3 (c : Dev nD) : (dat1 V c).share 3 = fullShare := by unfold Dat.share; dsimp only [dat1]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Share1.lean ====
/-
  The second region's arrays at its two ends, for the program `Kernel`.

  The region's four windows stand on three buffers: the intermediate array (windows 0 and 1), the scalar's array
  (window 2) and the result (window 3). Entering, the intermediate array, held whole, is divided into its left and right
  half shares, one per reading window; leaving, both halves still hold the contents the region found (an input array is
  never written), so they join again into the whole. Everything else the core holds passes by untouched.
-/
import proofs.«120709_j50500225466438_2_alg».proof.Proof.Gen.Kernel.Launch
import proofs.«120709_j50500225466438_2_alg».proof.Proof.Gen.Kernel.Skeleton
import proofs.«120709_j50500225466438_2_alg».proof.Proof.Gen.Kernel.Points
import proofs.«120709_j50500225466438_2_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the second region's arrays, listed. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v2) ↦{fullShare} W main_v2) ∗ (((c : Thread nD τ).loc main_v1) ↦{fullShare} W main_v1)
          ∗ (((c : Thread nD τ).loc main_v3) ↦{fullShare} W main_v3)) := by
  unfold Pipeline.arrBufs
  exact bigSep_eq_bigSepL_of_eq [main_v2, main_v1, main_v3] (by decide) (by decide) _

/-- The pipeline's arrays, window by window, each a whole buffer at its window's share. -/
theorem arrays1_eq (c : Dev nD) (A : (w : Fin cfg1.W) → Buf (Elt F) ((cfg1.win w).arr.view.loc (c : Thread nD τ))) :
    ((dat1 V c).arrays A : sProp 𝕄)
      = iprop((((c : Thread nD τ).loc main_v2) ↦{fullShare.left} A 0) ∗ (((c : Thread nD τ).loc main_v2) ↦{fullShare.right} A 1)
          ∗ (((c : Thread nD τ).loc main_v1) ↦{fullShare} A 2) ∗ (((c : Thread nD τ).loc main_v3) ↦{fullShare} A 3)) := by
  unfold Dat.arrays
  rw [bigSep_W1, share1_0, share1_1, share1_2, share1_3, (arr_whole1 0).set_eq_univ, (arr_whole1 2).set_eq_univ,
    (arr_whole1 3).set_eq_univ]

/-- ENTRY: the core's unscoped buffers at `V` are the pipeline's arrays at their entry contents and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have hs : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec1 c (V c)
          ∗ Pipeline.unscopedRest (Ix := Unit) (Name := ℕ) (U := UR sig nD τ) (Lvl := ℕ) spec1 c (V c)) :=
    Pipeline.unscopedBufs_split₀ cfgs 1 winFacts₀1.arr_unscoped c (V c)
  rw [hs, arrBufs1_eq, arrays1_eq]
  iintro ⟨⟨H2, H1, H3⟩, Hr⟩
  ihave H2' := (pointsTo_share (PosShare.mem_left_op_right fullShare)).1 $$ H2
  icases H2' with ⟨Ha, Hb⟩
  isplitr [Hr]
  · isplitl [Ha]; · iexact Ha
    isplitl [Hb]; · iexact Hb
    isplitl [H1]; · iexact H1
    iexact H3
  iexact Hr

/-- EXIT: the pipeline's arrays at their final contents and the rest at `V` are the core's unscoped buffers at any
    valuation `V'` that has the result at what the region leaves and agrees with `V` elsewhere. -/
theorem exit1 (c : Dev nD) (V' : (b : Ref sig .tc) → Buf (Elt F) ((c : Thread nD τ).loc b))
    (h3 : V' main_v3 = (dat1 V c).arrAt 3 cfg1.N) (hrest : ∀ b, b ≠ main_v3 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    refine bigSep_congr fun b hb => ?_
    rw [hrest b (fun e => (Finset.mem_sdiff.mp hb).2 (Finset.mem_image.mpr ⟨3, Finset.mem_univ _, e ▸ rfl⟩))]
  have hs : (unscopedBufs (Ix := Unit) (Name := ℕ) (U := UR sig nD τ) (Lvl := ℕ) c V' : sProp 𝕄)
      = iprop(Pipeline.arrBufs (Ix := Unit) (Name := ℕ) (U := UR sig nD τ) (Lvl := ℕ) spec1 c V'
          ∗ Pipeline.unscopedRest (Ix := Unit) (Name := ℕ) (U := UR sig nD τ) (Lvl := ℕ) spec1 c V') :=
    Pipeline.unscopedBufs_split₀ cfgs 1 winFacts₀1.arr_unscoped c V'
  rw [hs, arrBufs1_eq, arrays1_eq, hr,
    (dat1 V c).arrAt_in 0 rfl cfg1.N, (dat1 V c).arrAt_in 1 rfl cfg1.N, (dat1 V c).arrAt_in 2 rfl cfg1.N,
    hrest main_v2 (by decide), hrest main_v1 (by decide), h3]
  iintro ⟨⟨Ha, Hb, H1, H3⟩, Hr⟩
  isplitr [Hr]
  · isplitl [Ha Hb]
    · iapply (pointsTo_share (PosShare.mem_left_op_right fullShare)).2
      isplitl [Ha]; · iexact Ha
      iexact Hb
    isplitl [H1]; · iexact H1
    iexact H3
  iexact Hr

end Cert.Kernel.Frame

end
-- ==== Proof.K.Run.lean ====
/-
  The run of the program `Kernel`, at any float instance: @main is two reshapes on the host, then the projection
  region, then the bilinear region.

  Core `c`'s unscoped buffers are followed from the launch to the return: at launch (`W0`); after the two reshapes
  (`W1`); after the first region, which changes only the intermediate array (`W2`: that array at what the region's
  write-backs leave); after the second, which changes only the result (`W4`). Each region is entered from all unscoped
  buffers held at the valuation before it and left with them at the valuation after it. The launch over these
  segments gives `run_all`: every weakly fair execution terminates with every unscoped buffer at `W4`; no item writes an
  argument array, so each ends as launched (`frame`).
-/
import proofs.«120709_j50500225466438_2_alg».proof.Proof.Gen.Kernel.Launch
import proofs.«120709_j50500225466438_2_alg».proof.Proof.Gen.Kernel.Skeleton
import proofs.«120709_j50500225466438_2_alg».proof.Proof.Gen.Kernel.Points
import proofs.«120709_j50500225466438_2_alg».proof.Proof.K.Body0
import proofs.«120709_j50500225466438_2_alg».proof.Proof.K.Share1
import proofs.«120709_j50500225466438_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the two reshapes (the first region's entry). -/
abbrev W1 : Dev nD → Valuation τ sig (Elt F) := fun c => StableHlo.after hostOps0 (W0 m c)
/-- The same read at the core's references. -/
abbrev U1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (the second region's entry contents: no host operation lies between). -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- An input array of the first region is as entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))

/-- At the second region's exit: the result at what the pipeline leaves, every other buffer as entered. -/
def W4 (c : Dev nD) : Valuation τ sig (Elt F) :=
  Function.update (W2 m c) (Proc.devRef .tc main_v3) ((dat1 (U2 m) c).arrAt 3 cfg1.N)
theorem W4_v3 (c : Dev nD) : W4 m c (Proc.devRef .tc main_v3) = (dat1 (U2 m) c).arrAt 3 cfg1.N := by
  unfold W4; exact Function.update_self ..
theorem W4_of_ne (c : Dev nD) (b : Ref sig .tc) (hb : b ≠ main_v3) :
    W4 m c (Proc.devRef .tc b) = W2 m c (Proc.devRef .tc b) := by
  unfold W4; exact Function.update_of_ne (StableHlo.devRef_ne_of_ne hb) _ _
abbrev U4 : (c : Dev nD) → (b : Ref sig .tc) → Buf (Elt F) ((c : Thread nD τ).loc b) := fun c b => W4 m c b

/-! ### The arguments end as launched -/

theorem W4_main_arg0 (c : Dev nD) : W4 m c (Proc.devRef .tc main_arg0) = m ((c : Thread nD τ).loc main_arg0) :=
  (W4_of_ne m c main_arg0 (by decide)).trans <| (W2_in m c 0 rfl).trans <| (V1_of m c main_arg0 (by decide)).trans rfl
theorem W4_main_arg1 (c : Dev nD) : W4 m c (Proc.devRef .tc main_arg1) = m ((c : Thread nD τ).loc main_arg1) :=
  (W4_of_ne m c main_arg1 (by decide)).trans <| (W2_in m c 1 rfl).trans <| (V1_of m c main_arg1 (by decide)).trans rfl
theorem W4_main_arg2 (c : Dev nD) : W4 m c (Proc.devRef .tc main_arg2) = m ((c : Thread nD τ).loc main_arg2) :=
  (W4_of_ne m c main_arg2 (by decide)).trans <| (W2_of_ne m c main_arg2 (by decide)).trans <| (V1_of m c main_arg2 (by decide)).trans rfl
theorem W4_main_arg3 (c : Dev nD) : W4 m c (Proc.devRef .tc main_arg3) = m ((c : Thread nD τ).loc main_arg3) :=
  (W4_of_ne m c main_arg3 (by decide)).trans <| (W2_in m c 3 rfl).trans <| (V1_of m c main_arg3 (by decide)).trans rfl
theorem W4_main_arg4 (c : Dev nD) : W4 m c (Proc.devRef .tc main_arg4) = m ((c : Thread nD τ).loc main_arg4) :=
  (W4_of_ne m c main_arg4 (by decide)).trans <| (W2_of_ne m c main_arg4 (by decide)).trans <| (V1_of m c main_arg4 (by decide)).trans rfl

/-! ## The proof data family and the thread state -/

/-- The prefetched tables' admissible contents: no pipeline has a table. -/
abbrev admA : (p : Fin 2) → (pcfgs (F := F) p).Adm := fun p => (cfgs p).toPCfg_adm
/-- Every pipeline's proof data, each at its region's entry contents. -/
def pdatsA : (p : Fin 2) → (c : Dev nD) → Dat τ (Elt F) Unit ℕ (UR sig nD τ) ℕ (Pipeline.pin (pcfgs (F := F)) admA p) c
  | ⟨0, _⟩ => fun c => dat0 (U1 m) c
  | ⟨1, _⟩ => fun c => dat1 (U2 m) c
abbrev Vz : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vz Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped core reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W4`, the generator register at some state. -/
abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at `W1`, left at `W2`. Its arrays are split out of the unscoped
    buffers and put back at the exit contents; the generator register goes into the invariant and comes out. -/
def reg0 : Pipeline.RegionSeg (pcfgs (F := F)) admA (pdatsA m) () defs₀ Vz Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admA (pdatsA m) launch0.win launch0.arr_whole c
      ((pdatsA m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsA m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admA (Ix := Unit) (Name := ℕ) (U := UR sig nD τ) (Lvl := ℕ)
      launch0.win launch0.arr_whole c (pdatsA m) ((pdatsA m 0 c).share_full fun _ => rfl)
      (U1 m c) (U2 m c) ((pdatsA m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W4`. The intermediate array is divided into
    two half shares for its two reading windows at the entry and joined again at the exit. -/
def reg1 : Pipeline.RegionSeg (pcfgs (F := F)) admA (pdatsA m) () defs₀ Vz Lz lvz 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ Lz lvz 1 fun _ _ => rfl
  pre c := iprop(StableHlo.held (c : Thread nD τ) (Pipeline.ucRefs τ sig) (W2 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit : (unscopedBufs (Ix := Unit) (Name := ℕ) (U := UR sig nD τ) (Lvl := ℕ) c (U2 m c) : sProp 𝕄)
        ⊢ iprop((pdatsA m 1 c).arrays ((pdatsA m 1 c).arrAt · 0)
          ∗ Pipeline.unscopedRest (Ix := Unit) (Name := ℕ) (U := UR sig nD τ) (Lvl := ℕ) spec1 c (U2 m c)) := entry1 (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsA m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdatsA m 1 c).arrays ((pdatsA m 1 c).arrAt · cfg1.N)
          ∗ Pipeline.unscopedRest (Ix := Unit) (Name := ℕ) (U := UR sig nD τ) (Lvl := ℕ) spec1 c (U2 m c))
        ⊢ (unscopedBufs (Ix := Unit) (Name := ℕ) (U := UR sig nD τ) (Lvl := ℕ) c (U4 m c) : sProp 𝕄) :=
      exit1 (U2 m) c (U4 m c) (W4_v3 m c) (fun b hb => W4_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch, then a region per kernel. -/
abbrev segsA : List (Pipeline.Seg (pcfgs (F := F)) admA (pdatsA m) () defs₀ Vz Lz lvz) :=
  [ .host (hseg hostOps0 hostOps0_sub hostOps0_fresh (W0 m)),
    .region (reg0 m),
    .region (reg1 m) ]
/-- @main is the run of the segments. -/
theorem main_run (c : Dev nD) : main (F := F) c = Pipeline.Seg.run (segsA m) := (main_chain c).trans (by chain_rfl)

set_option backward.isDefEq.respectTransparency.types false in
/-- THE RUN: from any memory with zero counters, every weakly fair execution of @main terminates, nothing faulting, and
    every final memory holds every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admA (pdatsA m) () cellOf_inj emb₁ defs₀ Vz Lz lvz m ρ main (segsA m)
    (fun c Q => by rw [main_run m c])
    (by simp only [segsA, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tend m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Frame

end
-- ==== Proof.KI.Body0.lean ====
/-
  The first kernel region (the projection kernel), at any float instance, for the program `KernelIdeal`.

  At grid point t the body reads four whole staging buffers — the block of 1024 input rows, the 64 × 1024 weight, the
  1 × 64 bias row and the 64 × 64 compatibility matrix — and overwrites the whole 1024 × 128 output buffer with one
  pure function of them (the payload `k0_pay1`). Stated here at a parameter `V`, the contents of the core's arrays when
  the region is entered: each window's block at a point, what the body leaves in the output buffer, the body's triple,
  the proof data of the pipeline, and the body obligation at every point.
-/
import proofs.«120709_j50500225466438_2_alg».proof.Proof.Gen.KernelIdeal.Launch
import proofs.«120709_j50500225466438_2_alg».proof.Proof.Gen.KernelIdeal.Skeleton
import proofs.«120709_j50500225466438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: an unfetched point has the
    block index of the point before it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_0 : Rect S1024x1024 := Rect.unit (s := S1024x1024) ![0, 0] S1024x1024.size inb_S1024x1024_S1024x1024_0_0
abbrev r0_1 : Rect S64x1024 := Rect.unit (s := S64x1024) ![0, 0] S64x1024.size inb_S64x1024_S64x1024_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S1024x128 := Rect.unit (s := S1024x128) ![0, 0] S1024x128.size inb_S1024x128_S1024x128_0_0

/-! ## What the body leaves in the output window's buffer -/

/-- The output buffer after the body, from the four input blocks: its one store, as a piece. -/
def out0_4 (x0 : Vec F S1024x1024 .f32) (x1 : Vec F S64x1024 .f32) (x2 : Vec F S1x64 .f32) (x3 : Vec F S64x64 .f32) : Vec F S1024x128 .f32 :=
  View.canon [⟨r0_4, k0_pay1 (View.ld x0 r0_0) (View.ld x1 r0_1) (View.ld x2 r0_2) (View.ld x3 r0_3)⟩]

/-- The one store covers the buffer. -/
theorem cover0_4 (p0 : Vec F S1024x128 .f32) (y : S1024x128.Idx) :
    ∃ pc ∈ ([⟨r0_4, p0⟩] : List (View.Piece (Elt F) S1024x128 .f32)), y ∈ pc.1.set :=
  View.cover_of_tiled [⟨r0_4, p0⟩] S1024x128.size (by rfl) y

/-! ## The body's triple -/

set_option maxHeartbeats 1000000 in
/-- The body on whole staging buffers, the inputs' at contents `x0 … x3` and the output's at anything, runs to the
    continuation holding the inputs' as they were and the output's at `out0_4` of them. -/
theorem sound_kernel0 (c : Dev nD) (E : Set ℕ) (i : grid0.Coords)
    (arg1 : Memref sig .tc .vmem S1024x1024 .f32) (harg1 : arg1.IsWhole) (arg2 : Memref sig .tc .vmem S64x1024 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1024x128 .f32) (harg5 : arg5.IsWhole)
    (x0 : Vec F S1024x1024 .f32) (x1 : Vec F S64x1024 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the first pipeline on core `c`: the arrays as the region finds them; after the body at point `t`
    each input's buffer still at its block and the output's at `out0_4` of the input blocks; the invariant is the
    untouched rest (the scoped buffers no window stages, and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Body1.lean ====
/-
  The second kernel region (the bilinear kernel), at any float instance, for the program `KernelIdeal`.

  At grid point t = (i, j) the body reads three whole staging buffers — a block of 1024 rows and a block of 2048 rows of
  the SAME 8192 × 128 intermediate array, and the 1 × 1 scalar — and overwrites the whole 1024 × 2048 output buffer with
  one pure function of them (the payload `k1_pay1`). Stated at a parameter `V`, the contents of the core's arrays when
  the region is entered. The two windows on the intermediate array only read it, so the pipeline holds it twice at
  complementary half shares, one per window.
-/
import proofs.«120709_j50500225466438_2_alg».proof.Proof.Gen.KernelIdeal.Launch
import proofs.«120709_j50500225466438_2_alg».proof.Proof.Gen.KernelIdeal.Skeleton
import proofs.«120709_j50500225466438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_0 : Rect S1024x128 := Rect.unit (s := S1024x128) ![0, 0] S1024x128.size inb_S1024x128_S1024x128_0_0
abbrev r1_1 : Rect S2048x128 := Rect.unit (s := S2048x128) ![0, 0] S2048x128.size inb_S2048x128_S2048x128_0_0
abbrev r1_2 : Rect S1x1 := Rect.unit (s := S1x1) ![0, 0] S1x1.size inb_S1x1_S1x1_0_0
abbrev r1_3 : Rect S1024x2048 := Rect.unit (s := S1024x2048) ![0, 0] S1024x2048.size inb_S1024x2048_S1024x2048_0_0

/-! ## What the body leaves in the output window's buffer -/

/-- The output buffer after the body, from the three input blocks: its one store, as a piece. -/
def out1_3 (x0 : Vec F S1024x128 .f32) (x1 : Vec F S2048x128 .f32) (x2 : Vec F S1x1 .f32) : Vec F S1024x2048 .f32 :=
  View.canon [⟨r1_3, k1_pay1 (View.ld x0 r1_0) (View.ld x1 r1_1) (View.ld x2 r1_2)⟩]

/-- The one store covers the buffer. -/
theorem cover1_3 (p0 : Vec F S1024x2048 .f32) (y : S1024x2048.Idx) :
    ∃ pc ∈ ([⟨r1_3, p0⟩] : List (View.Piece (Elt F) S1024x2048 .f32)), y ∈ pc.1.set :=
  View.cover_of_tiled [⟨r1_3, p0⟩] S1024x2048.size (by rfl) y

/-! ## The body's triple -/

set_option maxHeartbeats 1000000 in
/-- The body on whole staging buffers, the inputs' at contents `x0 x1 x2` and the output's at anything, runs to the
    continuation holding the inputs' as they were and the output's at `out1_3` of them. -/
theorem sound_kernel1 (c : Dev nD) (E : Set ℕ) (i : grid1.Coords)
    (arg2 : Memref sig .tc .vmem S1024x128 .f32) (harg2 : arg2.IsWhole) (arg3 : Memref sig .tc .vmem S2048x128 .f32) (harg3 : arg3.IsWhole)
    (arg4 : Memref sig .tc .vmem S1x1 .f32) (harg4 : arg4.IsWhole) (arg5 : Memref sig .tc .vmem S1024x2048 .f32) (harg5 : arg5.IsWhole)
    (x0 : Vec F S1024x128 .f32) (x1 : Vec F S2048x128 .f32) (x2 : Vec F S1x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__bilinear_kernel i arg2 harg2 arg3 harg3 arg4 harg4 arg5 harg5) K := by
  simp only [cc1__bilinear_kernel_eq_skeleton]; unfold cc1__bilinear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pipeline on core `c`: the arrays as the region finds them; after the body at point `t`
    each input's buffer still at its block and the output's at `out1_3` of the input blocks; the invariant is the
    untouched rest; nothing owed. The intermediate array is read through windows 0 and 1: window 0 holds the left half
    of its full share and window 1 the right half; the scalar's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The shares the pipeline holds its arrays at, window by window. -/
theorem share1_0 (c : Dev nD) : (dat1 V c).share 0 = fullShare.left := by unfold Dat.share; dsimp only [dat1]; rfl
theorem share1_1 (c : Dev nD) : (dat1 V c).share 1 = fullShare.right := by unfold Dat.share; dsimp only [dat1]; rfl
theorem share1_2 (c : Dev nD) : (dat1 V c).share 2 = fullShare := by unfold Dat.share; dsimp only [dat1]; rfl
theorem share1_3 (c : Dev nD) : (dat1 V c).share 3 = fullShare := by unfold Dat.share; dsimp only [dat1]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Share1.lean ====
/-
  The second region's arrays at its two ends, for the program `KernelIdeal`.

  The region's four windows stand on three buffers: the intermediate array (windows 0 and 1), the scalar's array
  (window 2) and the result (window 3). Entering, the intermediate array, held whole, is divided into its left and right
  half shares, one per reading window; leaving, both halves still hold the contents the region found (an input array is
  never written), so they join again into the whole. Everything else the core holds passes by untouched.
-/
import proofs.«120709_j50500225466438_2_alg».proof.Proof.Gen.KernelIdeal.Launch
import proofs.«120709_j50500225466438_2_alg».proof.Proof.Gen.KernelIdeal.Skeleton
import proofs.«120709_j50500225466438_2_alg».proof.Proof.Gen.KernelIdeal.Points
import proofs.«120709_j50500225466438_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the second region's arrays, listed. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v2) ↦{fullShare} W main_v2) ∗ (((c : Thread nD τ).loc main_v1) ↦{fullShare} W main_v1)
          ∗ (((c : Thread nD τ).loc main_v3) ↦{fullShare} W main_v3)) := by
  unfold Pipeline.arrBufs
  exact bigSep_eq_bigSepL_of_eq [main_v2, main_v1, main_v3] (by decide) (by decide) _

/-- The pipeline's arrays, window by window, each a whole buffer at its window's share. -/
theorem arrays1_eq (c : Dev nD) (A : (w : Fin cfg1.W) → Buf (Elt F) ((cfg1.win w).arr.view.loc (c : Thread nD τ))) :
    ((dat1 V c).arrays A : sProp 𝕄)
      = iprop((((c : Thread nD τ).loc main_v2) ↦{fullShare.left} A 0) ∗ (((c : Thread nD τ).loc main_v2) ↦{fullShare.right} A 1)
          ∗ (((c : Thread nD τ).loc main_v1) ↦{fullShare} A 2) ∗ (((c : Thread nD τ).loc main_v3) ↦{fullShare} A 3)) := by
  unfold Dat.arrays
  rw [bigSep_W1, share1_0, share1_1, share1_2, share1_3, (arr_whole1 0).set_eq_univ, (arr_whole1 2).set_eq_univ,
    (arr_whole1 3).set_eq_univ]

/-- ENTRY: the core's unscoped buffers at `V` are the pipeline's arrays at their entry contents and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have hs : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec1 c (V c)
          ∗ Pipeline.unscopedRest (Ix := Unit) (Name := ℕ) (U := UR sig nD τ) (Lvl := ℕ) spec1 c (V c)) :=
    Pipeline.unscopedBufs_split₀ cfgs 1 winFacts₀1.arr_unscoped c (V c)
  rw [hs, arrBufs1_eq, arrays1_eq]
  iintro ⟨⟨H2, H1, H3⟩, Hr⟩
  ihave H2' := (pointsTo_share (PosShare.mem_left_op_right fullShare)).1 $$ H2
  icases H2' with ⟨Ha, Hb⟩
  isplitr [Hr]
  · isplitl [Ha]; · iexact Ha
    isplitl [Hb]; · iexact Hb
    isplitl [H1]; · iexact H1
    iexact H3
  iexact Hr

/-- EXIT: the pipeline's arrays at their final contents and the rest at `V` are the core's unscoped buffers at any
    valuation `V'` that has the result at what the region leaves and agrees with `V` elsewhere. -/
theorem exit1 (c : Dev nD) (V' : (b : Ref sig .tc) → Buf (Elt F) ((c : Thread nD τ).loc b))
    (h3 : V' main_v3 = (dat1 V c).arrAt 3 cfg1.N) (hrest : ∀ b, b ≠ main_v3 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    refine bigSep_congr fun b hb => ?_
    rw [hrest b (fun e => (Finset.mem_sdiff.mp hb).2 (Finset.mem_image.mpr ⟨3, Finset.mem_univ _, e ▸ rfl⟩))]
  have hs : (unscopedBufs (Ix := Unit) (Name := ℕ) (U := UR sig nD τ) (Lvl := ℕ) c V' : sProp 𝕄)
      = iprop(Pipeline.arrBufs (Ix := Unit) (Name := ℕ) (U := UR sig nD τ) (Lvl := ℕ) spec1 c V'
          ∗ Pipeline.unscopedRest (Ix := Unit) (Name := ℕ) (U := UR sig nD τ) (Lvl := ℕ) spec1 c V') :=
    Pipeline.unscopedBufs_split₀ cfgs 1 winFacts₀1.arr_unscoped c V'
  rw [hs, arrBufs1_eq, arrays1_eq, hr,
    (dat1 V c).arrAt_in 0 rfl cfg1.N, (dat1 V c).arrAt_in 1 rfl cfg1.N, (dat1 V c).arrAt_in 2 rfl cfg1.N,
    hrest main_v2 (by decide), hrest main_v1 (by decide), h3]
  iintro ⟨⟨Ha, Hb, H1, H3⟩, Hr⟩
  isplitr [Hr]
  · isplitl [Ha Hb]
    · iapply (pointsTo_share (PosShare.mem_left_op_right fullShare)).2
      isplitl [Ha]; · iexact Ha
      iexact Hb
    isplitl [H1]; · iexact H1
    iexact H3
  iexact Hr

end Cert.KernelIdeal.Frame

end
-- ==== Proof.KI.Run.lean ====
/-
  The run of the program `KernelIdeal`, at any float instance: @main is two reshapes on the host, then the projection
  region, then the bilinear region.

  Core `c`'s unscoped buffers are followed from the launch to the return: at launch (`W0`); after the two reshapes
  (`W1`); after the first region, which changes only the intermediate array (`W2`: that array at what the region's
  write-backs leave); after the second, which changes only the result (`W4`). Each region is entered from all unscoped
  buffers held at the valuation before it and left with them at the valuation after it. The launch over these
  segments gives `run_all`: every weakly fair execution terminates with every unscoped buffer at `W4`; no item writes an
  argument array, so each ends as launched (`frame`).
-/
import proofs.«120709_j50500225466438_2_alg».proof.Proof.Gen.KernelIdeal.Launch
import proofs.«120709_j50500225466438_2_alg».proof.Proof.Gen.KernelIdeal.Skeleton
import proofs.«120709_j50500225466438_2_alg».proof.Proof.Gen.KernelIdeal.Points
import proofs.«120709_j50500225466438_2_alg».proof.Proof.KI.Body0
import proofs.«120709_j50500225466438_2_alg».proof.Proof.KI.Share1
import proofs.«120709_j50500225466438_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the two reshapes (the first region's entry). -/
abbrev W1 : Dev nD → Valuation τ sig (Elt F) := fun c => StableHlo.after hostOps0 (W0 m c)
/-- The same read at the core's references. -/
abbrev U1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (the second region's entry contents: no host operation lies between). -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- An input array of the first region is as entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))

/-- At the second region's exit: the result at what the pipeline leaves, every other buffer as entered. -/
def W4 (c : Dev nD) : Valuation τ sig (Elt F) :=
  Function.update (W2 m c) (Proc.devRef .tc main_v3) ((dat1 (U2 m) c).arrAt 3 cfg1.N)
theorem W4_v3 (c : Dev nD) : W4 m c (Proc.devRef .tc main_v3) = (dat1 (U2 m) c).arrAt 3 cfg1.N := by
  unfold W4; exact Function.update_self ..
theorem W4_of_ne (c : Dev nD) (b : Ref sig .tc) (hb : b ≠ main_v3) :
    W4 m c (Proc.devRef .tc b) = W2 m c (Proc.devRef .tc b) := by
  unfold W4; exact Function.update_of_ne (StableHlo.devRef_ne_of_ne hb) _ _
abbrev U4 : (c : Dev nD) → (b : Ref sig .tc) → Buf (Elt F) ((c : Thread nD τ).loc b) := fun c b => W4 m c b

/-! ### The arguments end as launched -/

theorem W4_main_arg0 (c : Dev nD) : W4 m c (Proc.devRef .tc main_arg0) = m ((c : Thread nD τ).loc main_arg0) :=
  (W4_of_ne m c main_arg0 (by decide)).trans <| (W2_in m c 0 rfl).trans <| (V1_of m c main_arg0 (by decide)).trans rfl
theorem W4_main_arg1 (c : Dev nD) : W4 m c (Proc.devRef .tc main_arg1) = m ((c : Thread nD τ).loc main_arg1) :=
  (W4_of_ne m c main_arg1 (by decide)).trans <| (W2_in m c 1 rfl).trans <| (V1_of m c main_arg1 (by decide)).trans rfl
theorem W4_main_arg2 (c : Dev nD) : W4 m c (Proc.devRef .tc main_arg2) = m ((c : Thread nD τ).loc main_arg2) :=
  (W4_of_ne m c main_arg2 (by decide)).trans <| (W2_of_ne m c main_arg2 (by decide)).trans <| (V1_of m c main_arg2 (by decide)).trans rfl
theorem W4_main_arg3 (c : Dev nD) : W4 m c (Proc.devRef .tc main_arg3) = m ((c : Thread nD τ).loc main_arg3) :=
  (W4_of_ne m c main_arg3 (by decide)).trans <| (W2_in m c 3 rfl).trans <| (V1_of m c main_arg3 (by decide)).trans rfl
theorem W4_main_arg4 (c : Dev nD) : W4 m c (Proc.devRef .tc main_arg4) = m ((c : Thread nD τ).loc main_arg4) :=
  (W4_of_ne m c main_arg4 (by decide)).trans <| (W2_of_ne m c main_arg4 (by decide)).trans <| (V1_of m c main_arg4 (by decide)).trans rfl

/-! ## The proof data family and the thread state -/

/-- The prefetched tables' admissible contents: no pipeline has a table. -/
abbrev admA : (p : Fin 2) → (pcfgs (F := F) p).Adm := fun p => (cfgs p).toPCfg_adm
/-- Every pipeline's proof data, each at its region's entry contents. -/
def pdatsA : (p : Fin 2) → (c : Dev nD) → Dat τ (Elt F) Unit ℕ (UR sig nD τ) ℕ (Pipeline.pin (pcfgs (F := F)) admA p) c
  | ⟨0, _⟩ => fun c => dat0 (U1 m) c
  | ⟨1, _⟩ => fun c => dat1 (U2 m) c
abbrev Vz : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vz Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped core reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W4`, the generator register at some state. -/
abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at `W1`, left at `W2`. Its arrays are split out of the unscoped
    buffers and put back at the exit contents; the generator register goes into the invariant and comes out. -/
def reg0 : Pipeline.RegionSeg (pcfgs (F := F)) admA (pdatsA m) () defs₀ Vz Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admA (pdatsA m) launch0.win launch0.arr_whole c
      ((pdatsA m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsA m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admA (Ix := Unit) (Name := ℕ) (U := UR sig nD τ) (Lvl := ℕ)
      launch0.win launch0.arr_whole c (pdatsA m) ((pdatsA m 0 c).share_full fun _ => rfl)
      (U1 m c) (U2 m c) ((pdatsA m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W4`. The intermediate array is divided into
    two half shares for its two reading windows at the entry and joined again at the exit. -/
def reg1 : Pipeline.RegionSeg (pcfgs (F := F)) admA (pdatsA m) () defs₀ Vz Lz lvz 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ Lz lvz 1 fun _ _ => rfl
  pre c := iprop(StableHlo.held (c : Thread nD τ) (Pipeline.ucRefs τ sig) (W2 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit : (unscopedBufs (Ix := Unit) (Name := ℕ) (U := UR sig nD τ) (Lvl := ℕ) c (U2 m c) : sProp 𝕄)
        ⊢ iprop((pdatsA m 1 c).arrays ((pdatsA m 1 c).arrAt · 0)
          ∗ Pipeline.unscopedRest (Ix := Unit) (Name := ℕ) (U := UR sig nD τ) (Lvl := ℕ) spec1 c (U2 m c)) := entry1 (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsA m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdatsA m 1 c).arrays ((pdatsA m 1 c).arrAt · cfg1.N)
          ∗ Pipeline.unscopedRest (Ix := Unit) (Name := ℕ) (U := UR sig nD τ) (Lvl := ℕ) spec1 c (U2 m c))
        ⊢ (unscopedBufs (Ix := Unit) (Name := ℕ) (U := UR sig nD τ) (Lvl := ℕ) c (U4 m c) : sProp 𝕄) :=
      exit1 (U2 m) c (U4 m c) (W4_v3 m c) (fun b hb => W4_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch, then a region per kernel. -/
abbrev segsA : List (Pipeline.Seg (pcfgs (F := F)) admA (pdatsA m) () defs₀ Vz Lz lvz) :=
  [ .host (hseg hostOps0 hostOps0_sub hostOps0_fresh (W0 m)),
    .region (reg0 m),
    .region (reg1 m) ]
/-- @main is the run of the segments. -/
theorem main_run (c : Dev nD) : main (F := F) c = Pipeline.Seg.run (segsA m) := (main_chain c).trans (by chain_rfl)

set_option backward.isDefEq.respectTransparency.types false in
/-- THE RUN: from any memory with zero counters, every weakly fair execution of @main terminates, nothing faulting, and
    every final memory holds every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admA (pdatsA m) () cellOf_inj emb₁ defs₀ Vz Lz lvz m ρ main (segsA m)
    (fun c Q => by rw [main_run m c])
    (by simp only [segsA, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tend m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Frame

end
-- ==== Proof.Payload.lean ====
/-
  The two kernels' stored blocks, read entry by entry over the extended reals.

  First kernel, on a block of 1024 rows x (1024 × 1024), with w (64 × 1024), the bias row b (1 × 64) and cw (64 × 64):
    block[r, j] = (Σ_k x[r,k] · w[j,k]) + b[j]                               for j < 64,
    block[r, j] = Σ_p ((Σ_k x[r,k] · w[p,k]) + b[p]) · cw[p, j − 64]          for 64 ≤ j < 128:
  the projection and the projection times the compatibility matrix, side by side along the columns.
  Second kernel, on a block A of 1024 packed rows, a block B of 2048 packed rows and the 1 × 1 scalar s:
    block[r, c] = (Σ_q A[r, 64 + q] · B[c, q]) + s.
  Narrowing an operand to the shorter format is the identity on extended reals, each matrix product accumulates into
  the zero block and so is the plain sum over its one contracted axis, a cast to the same shape is the identity,
  and the bias row and the scalar are spread unchanged over the rows (and columns) of the block.
-/
import proofs.«120709_j50500225466438_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Payload

open Cert.KernelIdeal Idealize.ShloMosaic Idealize.ShloMosaic.ValueIdx

/-! ## The three matrix products read at an index

Each product accumulates into the zero block, so an entry is the plain sum, over the one contracted axis, of the
products of the two operands' entries; the contraction index is its single coordinate. -/

section Products
variable {φ₁ φ₂ : FTy}

/-- Left operand of the first product: row of the output, contraction position. -/
theorem xw_lhs_0 (j : S1024x64.Idx) (q : dot_S1024x1024_S64x1024_S1024x64_1_1_0_0_n_n.contr.Idx) :
    (dot_S1024x1024_S64x1024_S1024x64_1_1_0_0_n_n.lhsIdx j q 0).val = (j 0).val := by
  unfold DotDims.lhsIdx
  rw [dif_neg (show ¬(0 : Fin S1024x1024.rank) ∈ dot_S1024x1024_S64x1024_S1024x64_1_1_0_0_n_n.lhsBatch by decide), dif_pos (show (0 : Fin S1024x1024.rank) ∈ dot_S1024x1024_S64x1024_S1024x64_1_1_0_0_n_n.lhsNonContracting by decide)]
  rfl
theorem xw_lhs_1 (j : S1024x64.Idx) (q : dot_S1024x1024_S64x1024_S1024x64_1_1_0_0_n_n.contr.Idx) :
    (dot_S1024x1024_S64x1024_S1024x64_1_1_0_0_n_n.lhsIdx j q 1).val = (q ⟨0, by decide⟩).val :=
  dot_S1024x1024_S64x1024_S1024x64_1_1_0_0_n_n.lhsIdx_val_of_single rfl j q
/-- Right operand of the first product: column of the output on its row axis, contraction position on its column axis. -/
theorem xw_rhs_0 (j : S1024x64.Idx) (q : dot_S1024x1024_S64x1024_S1024x64_1_1_0_0_n_n.contr.Idx) :
    (dot_S1024x1024_S64x1024_S1024x64_1_1_0_0_n_n.rhsIdx j q 0).val = (j 1).val := by
  unfold DotDims.rhsIdx
  rw [dif_neg (show ¬(0 : Fin S64x1024.rank) ∈ dot_S1024x1024_S64x1024_S1024x64_1_1_0_0_n_n.rhsBatch by decide), dif_pos (show (0 : Fin S64x1024.rank) ∈ dot_S1024x1024_S64x1024_S1024x64_1_1_0_0_n_n.rhsNonContracting by decide)]
  rfl
theorem xw_rhs_1 (j : S1024x64.Idx) (q : dot_S1024x1024_S64x1024_S1024x64_1_1_0_0_n_n.contr.Idx) :
    (dot_S1024x1024_S64x1024_S1024x64_1_1_0_0_n_n.rhsIdx j q 1).val = (q ⟨0, by decide⟩).val :=
  dot_S1024x1024_S64x1024_S1024x64_1_1_0_0_n_n.rhsIdx_val_of_single rfl j q

/-- A 1024 × 1024 block times the transpose of a 64 × 1024 block: entry (i, p) is Σ_k l[i,k] · r[p,k]. -/
theorem matmul_xw_apply (l : FVec Ideal S1024x1024 φ₁) (r : FVec Ideal S64x1024 φ₂) (i : Fin 1024) (p : Fin 64) :
    matmul dot_S1024x1024_S64x1024_S1024x64_1_1_0_0_n_n none l r (constant (F := Ideal) S1024x64 .f32 0x00000000#32) (ix2 i p)
      = ∑ k : Fin 1024, l (ix2 i k) * r (ix2 p k) := by
  refine (Ideal.matmul_constant_zero_apply dot_S1024x1024_S64x1024_S1024x64_1_1_0_0_n_n none l r (ix2 i p)).trans ?_
  rw [← Equiv.sum_comp (contrEquiv1 dot_S1024x1024_S64x1024_S1024x64_1_1_0_0_n_n 1024 rfl rfl).symm]
  refine Finset.sum_congr rfl fun k _ => ?_
  have hk := contrEquiv1_symm_val dot_S1024x1024_S64x1024_S1024x64_1_1_0_0_n_n 1024 rfl rfl k
  have el : dot_S1024x1024_S64x1024_S1024x64_1_1_0_0_n_n.lhsIdx (ix2 i p) ((contrEquiv1 dot_S1024x1024_S64x1024_S1024x64_1_1_0_0_n_n 1024 rfl rfl).symm k) = ix2 i k := funext fun a => Fin.ext (by
    match a with
    | ⟨0, _⟩ => exact xw_lhs_0 _ _
    | ⟨1, _⟩ => exact (xw_lhs_1 _ _).trans hk)
  have er : dot_S1024x1024_S64x1024_S1024x64_1_1_0_0_n_n.rhsIdx (ix2 i p) ((contrEquiv1 dot_S1024x1024_S64x1024_S1024x64_1_1_0_0_n_n 1024 rfl rfl).symm k) = ix2 p k := funext fun a => Fin.ext (by
    match a with
    | ⟨0, _⟩ => exact xw_rhs_0 _ _
    | ⟨1, _⟩ => exact (xw_rhs_1 _ _).trans hk)
  rw [el, er]

/-- Left operand of the second product: row of the output, contraction position. -/
theorem pc_lhs_0 (j : S1024x64.Idx) (q : dot_S1024x64_S64x64_S1024x64_1_0_0_1_n_n.contr.Idx) :
    (dot_S1024x64_S64x64_S1024x64_1_0_0_1_n_n.lhsIdx j q 0).val = (j 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem pc_lhs_1 (j : S1024x64.Idx) (q : dot_S1024x64_S64x64_S1024x64_1_0_0_1_n_n.contr.Idx) :
    (dot_S1024x64_S64x64_S1024x64_1_0_0_1_n_n.lhsIdx j q 1).val = (q ⟨0, by decide⟩).val :=
  dot_S1024x64_S64x64_S1024x64_1_0_0_1_n_n.lhsIdx_val_of_single rfl j q
/-- Right operand of the second product: contraction position on its row axis, column of the output. -/
theorem pc_rhs_0 (j : S1024x64.Idx) (q : dot_S1024x64_S64x64_S1024x64_1_0_0_1_n_n.contr.Idx) :
    (dot_S1024x64_S64x64_S1024x64_1_0_0_1_n_n.rhsIdx j q 0).val = (q ⟨0, by decide⟩).val :=
  dot_S1024x64_S64x64_S1024x64_1_0_0_1_n_n.rhsIdx_val_of_single rfl j q
theorem pc_rhs_1 (j : S1024x64.Idx) (q : dot_S1024x64_S64x64_S1024x64_1_0_0_1_n_n.contr.Idx) :
    (dot_S1024x64_S64x64_S1024x64_1_0_0_1_n_n.rhsIdx j q 1).val = (j 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- A 1024 × 64 block times a 64 × 64 matrix: entry (i, q) is Σ_p l[i,p] · r[p,q]. -/
theorem matmul_pc_apply (l : FVec Ideal S1024x64 φ₁) (r : FVec Ideal S64x64 φ₂) (i : Fin 1024) (q : Fin 64) :
    matmul dot_S1024x64_S64x64_S1024x64_1_0_0_1_n_n none l r (constant (F := Ideal) S1024x64 .f32 0x00000000#32) (ix2 i q)
      = ∑ p : Fin 64, l (ix2 i p) * r (ix2 p q) := by
  refine (Ideal.matmul_constant_zero_apply dot_S1024x64_S64x64_S1024x64_1_0_0_1_n_n none l r (ix2 i q)).trans ?_
  rw [← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 i q) ((contrEquiv1 dot_S1024x64_S64x64_S1024x64_1_0_0_1_n_n 64 rfl rfl).symm k) = ix2 i k := funext fun a => Fin.ext (by
    match a with
    | ⟨0, _⟩ => exact pc_lhs_0 _ _
    | ⟨1, _⟩ => exact (pc_lhs_1 _ _).trans hk)
  have er : dot_S1024x64_S64x64_S1024x64_1_0_0_1_n_n.rhsIdx (ix2 i q) ((contrEquiv1 dot_S1024x64_S64x64_S1024x64_1_0_0_1_n_n 64 rfl rfl).symm k) = ix2 k q := funext fun a => Fin.ext (by
    match a with
    | ⟨0, _⟩ => exact (pc_rhs_0 _ _).trans hk
    | ⟨1, _⟩ => exact pc_rhs_1 _ _)
  rw [el, er]

/-- Left operand of the third product: row of the output, contraction position. -/
theorem lp_lhs_0 (j : S1024x2048.Idx) (q : dot_S1024x64_S2048x64_S1024x2048_1_1_0_0_n_n.contr.Idx) :
    (dot_S1024x64_S2048x64_S1024x2048_1_1_0_0_n_n.lhsIdx j q 0).val = (j 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lp_lhs_1 (j : S1024x2048.Idx) (q : dot_S1024x64_S2048x64_S1024x2048_1_1_0_0_n_n.contr.Idx) :
    (dot_S1024x64_S2048x64_S1024x2048_1_1_0_0_n_n.lhsIdx j q 1).val = (q ⟨0, by decide⟩).val :=
  dot_S1024x64_S2048x64_S1024x2048_1_1_0_0_n_n.lhsIdx_val_of_single rfl j q
/-- Right operand of the third product: column of the output on its row axis, contraction position on its column axis. -/
theorem lp_rhs_0 (j : S1024x2048.Idx) (q : dot_S1024x64_S2048x64_S1024x2048_1_1_0_0_n_n.contr.Idx) :
    (dot_S1024x64_S2048x64_S1024x2048_1_1_0_0_n_n.rhsIdx j q 0).val = (j 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem lp_rhs_1 (j : S1024x2048.Idx) (q : dot_S1024x64_S2048x64_S1024x2048_1_1_0_0_n_n.contr.Idx) :
    (dot_S1024x64_S2048x64_S1024x2048_1_1_0_0_n_n.rhsIdx j q 1).val = (q ⟨0, by decide⟩).val :=
  dot_S1024x64_S2048x64_S1024x2048_1_1_0_0_n_n.rhsIdx_val_of_single rfl j q

/-- A 1024 × 64 block times the transpose of a 2048 × 64 block: entry (i, c) is Σ_q l[i,q] · r[c,q]. -/
theorem matmul_lp_apply (l : FVec Ideal S1024x64 φ₁) (r : FVec Ideal S2048x64 φ₂) (i : Fin 1024) (c : Fin 2048) :
    matmul dot_S1024x64_S2048x64_S1024x2048_1_1_0_0_n_n none l r (constant (F := Ideal) S1024x2048 .f32 0x00000000#32) (ix2 i c)
      = ∑ q : Fin 64, l (ix2 i q) * r (ix2 c q) := by
  refine (Ideal.matmul_constant_zero_apply dot_S1024x64_S2048x64_S1024x2048_1_1_0_0_n_n none l r (ix2 i c)).trans ?_
  rw [← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 i c) ((contrEquiv1 dot_S1024x64_S2048x64_S1024x2048_1_1_0_0_n_n 64 rfl rfl).symm k) = ix2 i k := funext fun a => Fin.ext (by
    match a with
    | ⟨0, _⟩ => exact lp_lhs_0 _ _
    | ⟨1, _⟩ => exact (lp_lhs_1 _ _).trans hk)
  have er : dot_S1024x64_S2048x64_S1024x2048_1_1_0_0_n_n.rhsIdx (ix2 i c) ((contrEquiv1 dot_S1024x64_S2048x64_S1024x2048_1_1_0_0_n_n 64 rfl rfl).symm k) = ix2 c k := funext fun a => Fin.ext (by
    match a with
    | ⟨0, _⟩ => exact lp_rhs_0 _ _
    | ⟨1, _⟩ => exact (lp_rhs_1 _ _).trans hk)
  rw [el, er]

end Products

/-! ## The first kernel's block -/

/-- The projected block before packing: row r, feature p is (Σ_k x[r,k] · w[p,k]) + b[p]; the bias row is the
    same for every row of the block, and the narrowing of the operands is the identity on extended reals. -/
theorem proj_block_apply (v0 : Vec Ideal S1024x1024 .f32) (v2 : Vec Ideal S64x1024 .f32) (v5 : Vec Ideal S1x64 .f32)
    (r : Fin 1024) (p : Fin 64) :
    addf (matmul dot_S1024x1024_S64x1024_S1024x64_1_1_0_0_n_n none (truncf .bf16 v0 Gen.bitsLt_bf16_f32)
        (truncf .bf16 v2 Gen.bitsLt_bf16_f32) (constant (F := Ideal) S1024x64 .f32 0x00000000#32))
      (broadcastTo S1024x64 (shapeCast S1x64 v5 Gen.shapeCasts_S1x64_S1x64) Gen.broadcasts_S1x64_S1024x64) (ix2 r p)
      = (∑ k : Fin 1024, v0 (ix2 r k) * v2 (ix2 p k)) + v5 (ix2 (0 : Fin 1) p) := by
  refine (addf_apply _ _ _).trans ?_
  refine congrArg₂ (· + ·) ?_ ?_
  · exact matmul_xw_apply (truncf .bf16 v0 Gen.bitsLt_bf16_f32) (truncf .bf16 v2 Gen.bitsLt_bf16_f32) r p
  · exact (broadcastTo_1b_ab_apply _ Gen.broadcasts_S1x64_S1024x64 r p).trans
      (congrFun (shapeCast_self v5 Gen.shapeCasts_S1x64_S1x64) _)

/-- The first kernel's stored block at (r, j): columns 0–63 hold the projection, columns 64–127 the projection
    multiplied into the compatibility matrix. -/
theorem pay0_apply (v0 : Vec Ideal S1024x1024 .f32) (v2 : Vec Ideal S64x1024 .f32) (v5 : Vec Ideal S1x64 .f32)
    (v10 : Vec Ideal S64x64 .f32) (r : Fin 1024) (j : Fin 128) :
    Cert.KernelIdeal.Gen.k0_pay1 (F := Ideal) v0 v2 v5 v10 (ix2 r j) =
      if h : j.val < 64 then
        (∑ k : Fin 1024, v0 (ix2 r k) * v2 (ix2 (⟨j.val, h⟩ : Fin 64) k)) + v5 (ix2 (0 : Fin 1) (⟨j.val, h⟩ : Fin 64))
      else
        ∑ p : Fin 64, ((∑ k : Fin 1024, v0 (ix2 r k) * v2 (ix2 p k)) + v5 (ix2 (0 : Fin 1) p))
          * v10 (ix2 p (⟨j.val - 64, by omega⟩ : Fin 64)) := by
  unfold Gen.k0_pay1
  by_cases h : j.val < 64
  · rw [dif_pos h]
    refine (concatenate_pair_apply_left _ _ _ Gen.concatenates_S1024x64_S1024x64_S1024x128_d1 (ix2 r j) rfl
      (ix2 r (⟨j.val, h⟩ : Fin 64)) (fun b => by
        match b with
        | ⟨0, _⟩ => rfl
        | ⟨1, _⟩ => rfl)).trans ?_
    exact proj_block_apply v0 v2 v5 r ⟨j.val, h⟩
  · rw [dif_neg h]
    refine (concatenate_pair_apply_right _ _ _ Gen.concatenates_S1024x64_S1024x64_S1024x128_d1 (ix2 r j) rfl rfl
      (ix2 r (⟨j.val - 64, by omega⟩ : Fin 64)) (fun b hb => by
        match b, hb with
        | ⟨0, _⟩, _ => rfl
        | ⟨1, _⟩, hb => exact absurd rfl hb) (by
        show (j.val - 64) + 64 = j.val
        omega)).trans ?_
    refine (matmul_pc_apply _ _ r (⟨j.val - 64, by omega⟩ : Fin 64)).trans ?_
    refine Finset.sum_congr rfl fun p _ => ?_
    refine congrArg₂ (· * ·) ?_ rfl
    exact proj_block_apply v0 v2 v5 r p

/-! ## The second kernel's block -/

/-- A 1 × 1 block spread over a 1024 × 2048 block reads its one entry everywhere. -/
theorem scalar_block_apply (v : FVec Ideal S1x1 .f32) (r : Fin 1024) (c : Fin 2048) :
    broadcastTo S1024x2048 v Gen.broadcasts_S1x1_S1024x2048 (ix2 r c) = v (ix2 (0 : Fin 1) (0 : Fin 1)) := by
  refine broadcastTo_apply v Gen.broadcasts_S1x1_S1024x2048 (ix2 r c) (ix2 (0 : Fin 1) (0 : Fin 1)) fun ax => ?_
  match ax with
  | ⟨0, _⟩ => rfl
  | ⟨1, _⟩ => rfl

/-- The second kernel's stored block at (r, c): the left factor is columns 64–127 of row r of the first packed
    block, the right factor columns 0–63 of row c of the second, and the scalar is added to every entry. -/
theorem pay1_apply (v0 : Vec Ideal S1024x128 .f32) (v2 : Vec Ideal S2048x128 .f32) (v9 : Vec Ideal S1x1 .f32)
    (r : Fin 1024) (c : Fin 2048) :
    Cert.KernelIdeal.Gen.k1_pay1 (F := Ideal) v0 v2 v9 (ix2 r c) =
      (∑ q : Fin 64, v0 (ix2 r (⟨64 + q.val, by omega⟩ : Fin 128)) * v2 (ix2 c (⟨q.val, by omega⟩ : Fin 128)))
        + v9 (ix2 (0 : Fin 1) (0 : Fin 1)) := by
  unfold Gen.k1_pay1
  refine (addf_apply _ _ _).trans ?_
  refine congrArg₂ (· + ·) ?_ ?_
  · refine (matmul_lp_apply _ _ r c).trans ?_
    refine Finset.sum_congr rfl fun q _ => ?_
    refine congrArg₂ (· * ·) ?_ ?_
    · refine (truncf_apply (ψ := .bf16) _ Gen.bitsLt_bf16_f32 _).trans ?_
      refine (slice2_axis1_apply 64 _ Gen.slices_S1024x128_o0_64_S1024x64 r q (⟨64 + q.val, by omega⟩ : Fin 128) rfl).trans ?_
      exact congrFun (shapeCast_self v0 Gen.shapeCasts_S1024x128_S1024x128) _
    · refine (truncf_apply (ψ := .bf16) _ Gen.bitsLt_bf16_f32 _).trans ?_
      refine (slice2_axis1_apply 0 _ Gen.slices_S2048x128_o0_0_S2048x64 c q (⟨q.val, by omega⟩ : Fin 128) (by
        show q.val = 0 + q.val
        omega)).trans ?_
      exact congrFun (shapeCast_self v2 Gen.shapeCasts_S2048x128_S2048x128) _
  · exact (scalar_block_apply _ r c).trans (congrFun (shapeCast_self v9 Gen.shapeCasts_S1x1_S1x1) _)

end Cert.Payload

end
-- ==== Proof.Spec.lean ====
/-
  The mathematics both programs compute, over the extended reals, as plain functions of the five argument arrays.

  With x : 8192 × 1024, w : 64 × 1024, b : 64, cw : 64 × 64 and a scalar cb:
    proj r p  = (Σ_k x[r,k] · w[p,k]) + b[p]            -- the linear projection, row r, feature p
    left r q  = Σ_p proj r p · cw[p,q]                  -- the projection times the compatibility matrix
    out  r c  = (Σ_q left r q · proj c q) + cb          -- the pairwise bilinear score of rows r and c
  The kernel materialises proj and left side by side in one 8192 × 128 array (`packed`: columns 0–63 hold proj,
  columns 64–127 hold left) and then forms `out` tile by tile; the reference forms the same three sums as whole
  matrix products. No rearrangement of a sum is involved: each side adds the same terms in the same grouping.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 1024]⟩
abbrev SW : Shape := ⟨2, ![64, 1024]⟩
abbrev SB : Shape := ⟨1, ![64]⟩
abbrev SC : Shape := ⟨2, ![64, 64]⟩
abbrev S0 : Shape := ⟨0, ![]⟩
abbrev SP : Shape := ⟨2, ![8192, 128]⟩
abbrev SO : Shape := ⟨2, ![8192, 8192]⟩

variable (x : FVec Ideal SX .f32) (w : FVec Ideal SW .f32) (b : FVec Ideal SB .f32) (cw : FVec Ideal SC .f32)
  (cb : FVec Ideal S0 .f32)

/-- Row `r` of the input projected onto feature `p`, plus that feature's bias. -/
def proj (r : Fin 8192) (p : Fin 64) : EReal :=
  (∑ k : Fin 1024, x (ix2 r k) * w (ix2 p k)) + b (ix1 p)

/-- The projected row `r` multiplied into column `q` of the compatibility matrix. -/
def left (r : Fin 8192) (q : Fin 64) : EReal :=
  ∑ p : Fin 64, proj x w b r p * cw (ix2 p q)

/-- The intermediate array the kernel keeps: `proj` in columns 0–63, `left` in columns 64–127. -/
def packed : FVec Ideal SP .f32 := fun i =>
  if h : (i 1).val < 64 then proj x w b ⟨(i 0).val, (i 0).isLt⟩ ⟨(i 1).val, h⟩
  else left x w b cw ⟨(i 0).val, (i 0).isLt⟩ ⟨(i 1).val - 64, by have := idx2_lt1 i; omega⟩

/-- The bilinear score of rows `r` and `c`, plus the scalar bias. -/
def out (r c : Fin 8192) : EReal :=
  (∑ q : Fin 64, left x w b cw r q * proj x w b c q) + cb ix0

/-- The whole result array. -/
def result : FVec Ideal SO .f32 := fun i =>
  out x w b cw cb ⟨(i 0).val, (i 0).isLt⟩ ⟨(i 1).val, (i 1).isLt⟩

end Cert.Spec

end
-- ==== Proof.KI.Val0.lean ====
/-
  What the first region leaves in the intermediate array, over the extended reals.

  Grid point t of the projection kernel reads rows 1024·t … 1024·t + 1023 of the input and the whole weight, bias row
  and compatibility matrix, and writes rows 1024·t … 1024·t + 1023 of the 8192 × 128 intermediate array. Row R,
  column j of what it writes is the specification's `packed` at (R, j): the projection of row R onto feature j for
  j < 64, and the projected row times column j − 64 of the compatibility matrix for j ≥ 64. The eight blocks tile the
  array (row R lies in block R / 1024), so after the region the whole array is `packed` of the arrays it was entered
  with. The bias reaches the kernel as a 1 × 64 row; `rowOf` reads that row back as a vector of 64 entries.
-/
import proofs.«120709_j50500225466438_2_alg».proof.Proof.KI.Body0
import proofs.«120709_j50500225466438_2_alg».proof.Proof.Payload
import proofs.«120709_j50500225466438_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The 1 × 64 bias row read as a vector of 64 entries. -/
def rowOf (b2 : FVec Ideal S1x64 .f32) : FVec Ideal Cert.Spec.SB .f32 :=
  fun j => b2 (ix2 (0 : Fin 1) (⟨(j 0).val, (j 0).isLt⟩ : Fin 64))

/-- One block of the first kernel, over plain variables: if `x0` is rows 1024·T … of `X` and `x1 x2 x3` are the whole
    weight, bias row and compatibility matrix, the stored block at (r, j) is `packed` at (1024·T + r, j). -/
theorem block0 (X : FVec Ideal S8192x1024 .f32) (Wt : FVec Ideal S64x1024 .f32) (b2 : FVec Ideal S1x64 .f32) (cw : FVec Ideal S64x64 .f32)
    (T : Nat) (hT : T < 8)
    (x0 : Vec Ideal S1024x1024 .f32) (x1 : Vec Ideal S64x1024 .f32) (x2 : Vec Ideal S1x64 .f32) (x3 : Vec Ideal S64x64 .f32)
    (h0 : ∀ (r : Fin 1024) (k : Fin 1024), x0 (ix2 r k) = X (ix2 (⟨T * 1024 + r.val, by omega⟩ : Fin 8192) k))
    (h1 : ∀ (p : Fin 64) (k : Fin 1024), x1 (ix2 p k) = Wt (ix2 p k))
    (h2 : ∀ p : Fin 64, x2 (ix2 (0 : Fin 1) p) = b2 (ix2 (0 : Fin 1) p))
    (h3 : ∀ (p q : Fin 64), x3 (ix2 p q) = cw (ix2 p q))
    (r : Fin 1024) (j : Fin 128) :
    k0_pay1 (F := Ideal) x0 x1 x2 x3 (ix2 r j)
      = Cert.Spec.packed X Wt (rowOf b2) cw (ix2 (⟨T * 1024 + r.val, by omega⟩ : Fin 8192) j) := by
  refine (Cert.Payload.pay0_apply x0 x1 x2 x3 r j).trans ?_
  unfold Cert.Spec.packed
  by_cases h : j.val < 64
  · rw [dif_pos h, dif_pos (show ((ix2 (⟨T * 1024 + r.val, by omega⟩ : Fin 8192) j) 1).val < 64 from h)]
    unfold Cert.Spec.proj rowOf
    simp only [h0, h1, h2]
  · rw [dif_neg h, dif_neg (show ¬ ((ix2 (⟨T * 1024 + r.val, by omega⟩ : Fin 8192) j) 1).val < 64 from h)]
    unfold Cert.Spec.left Cert.Spec.proj rowOf
    simp only [h0, h1, h2, h3]

variable (V : (c : Dev nD) → (b : Ref sig .tc) → Buf (Elt Ideal) ((c : Thread nD τ).loc b))

/-- The printed index maps of the first kernel, decided over its eight grid points: the input rows and the output rows
    move with the point, every other window stays at block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The intermediate array after the first region, as one function of the arrays the region was entered with. -/
abbrev P0 (c : Dev nD) : FVec Ideal S8192x128 .f32 :=
  Cert.Spec.packed (V c main_arg0) (V c main_arg1) (rowOf (V c main_v0)) (V c main_arg3)

/-- WHAT POINT `t` WRITES BACK is block `t` of `packed`. -/
theorem flushed0_eq (c : Dev nD) (t : Fin cfg0.N) :
    (dat0 V c).flushed 4 t = ((cfg0.win 4).blk t).view.read (Elt Ideal) (P0 V c) := by
  show (cfg0.win 4).cut (grid0.coords t) ((dat0 V c).after 4 t) = _
  rw [after0_4]
  unfold out0_4
  rw [View.canon_unit_zero hz]
  simp only [View.ld_unit_zero (S := S1024x1024) hz, View.ld_unit_zero (S := S64x1024) hz, View.ld_unit_zero (S := S1x64) hz,
    View.ld_unit_zero (S := S64x64) hz]
  obtain ⟨e00, e01, e10, e11, e20, e21, e30, e31, e40, e41⟩ := idx_facts0 t
  have ht : t.val < 8 := lt_of_lt_of_eq t.isLt N_0
  funext y
  obtain ⟨r, j, rfl⟩ : ∃ (r : Fin 1024) (j : Fin 128), y = ix2 r j := ⟨y 0, y 1, eq_ix2 y⟩
  show k0_pay1 (F := Ideal) (iblk0 V c 0 t) (iblk0 V c 1 t) (iblk0 V c 2 t) (iblk0 V c 3 t) (ix2 r j)
    = P0 V c (((cfg0.win 4).blk t).view.emb (ix2 r j))
  have hemb : ((cfg0.win 4).blk t).view.emb (ix2 r j) = ix2 (⟨t.val * 1024 + r.val, by omega⟩ : Fin 8192) j := by
    funext a; apply Fin.ext
    match a with
    | ⟨0, _⟩ => show win0_4.index t (0 : Fin 2) * 1024 + 1 * r.val = t.val * 1024 + r.val; omega
    | ⟨1, _⟩ => show win0_4.index t (1 : Fin 2) * 128 + 1 * j.val = j.val; omega
  rw [hemb]
  refine block0 (V c main_arg0) (V c main_arg1) (V c main_v0) (V c main_arg3) t.val ht
    (iblk0 V c 0 t) (iblk0 V c 1 t) (iblk0 V c 2 t) (iblk0 V c 3 t) ?_ ?_ ?_ ?_ r j
  · intro r k
    show V c main_arg0 (((cfg0.win 0).blk t).view.emb (ix2 r k)) = _
    refine congrArg _ (funext fun a => Fin.ext ?_)
    match a with
    | ⟨0, _⟩ => show win0_0.index t (0 : Fin 2) * 1024 + 1 * r.val = t.val * 1024 + r.val; omega
    | ⟨1, _⟩ => show win0_0.index t (1 : Fin 2) * 1024 + 1 * k.val = k.val; omega
  · intro p k
    show V c main_arg1 (((cfg0.win 1).blk t).view.emb (ix2 p k)) = _
    refine congrArg _ (funext fun a => Fin.ext ?_)
    match a with
    | ⟨0, _⟩ => show win0_1.index t (0 : Fin 2) * 64 + 1 * p.val = p.val; omega
    | ⟨1, _⟩ => show win0_1.index t (1 : Fin 2) * 1024 + 1 * k.val = k.val; omega
  · intro p
    show V c main_v0 (((cfg0.win 2).blk t).view.emb (ix2 (0 : Fin 1) p)) = _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * p.val = p.val; omega
  · intro p q
    show V c main_arg3 (((cfg0.win 3).blk t).view.emb (ix2 p q)) = _
    refine congrArg _ (funext fun a => Fin.ext ?_)
    match a with
    | ⟨0, _⟩ => show win0_3.index t (0 : Fin 2) * 64 + 1 * p.val = p.val; omega
    | ⟨1, _⟩ => show win0_3.index t (1 : Fin 2) * 64 + 1 * q.val = q.val; omega

/-- An index of the intermediate array is in point `t`'s block iff each coordinate is in the block's range. -/
theorem mem_blk0 (t : Fin cfg0.N) (i : S8192x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v2).slice (win0_4.rect t)).set ↔ _
  rw [View.set_slice_whole, Rect.mem_set_unit]
  exact Iff.rfl

/-- Every index of the intermediate array lies in the block of some point: row R in the block of point R / 1024. -/
theorem cover0 (i : S8192x128.Idx) :
    ∃ t : Fin cfg0.N, (cfg0.win 4).flush t = true ∧ i ∈ ((cfg0.win 4).blk t).view.set := by
  have hi0 : (i 0).val < 8192 := idx2_lt0 i
  have hi1 : (i 1).val < 128 := idx2_lt1 i
  let t : Fin cfg0.N := ⟨(i 0).val / 1024, lt_of_lt_of_eq (by omega : (i 0).val / 1024 < 8) N_0.symm⟩
  obtain ⟨e00, e01, e10, e11, e20, e21, e30, e31, e40, e41⟩ := idx_facts0 t
  have htv : t.val = (i 0).val / 1024 := rfl
  refine ⟨t, flush0_4 t, ?_⟩
  rw [mem_blk0]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 128 ≤ (i 1).val ∧ (i 1).val < win0_4.index t (1 : Fin 2) * 128 + 128
    omega

/-- THE INTERMEDIATE ARRAY after the first region is `packed` of the arrays the region was entered with. -/
theorem final0 (c : Dev nD) : (dat0 V c).arrAt 4 cfg0.N = P0 V c :=
  (dat0 V c).arrAt_eq_of_cover 4 (P0 V c) (fun t _ => flushed0_eq V c t) (cover0)

end Cert.KernelIdeal.Val

end
-- ==== Proof.KI.Val1.lean ====
/-
  What the second region leaves in the result array, over the extended reals.

  Grid point t = 4·i + j of the bilinear kernel reads rows 1024·i … of the intermediate array (for the left factor,
  columns 64–127), rows 2048·j … of the same array (for the right factor, columns 0–63) and the 1 × 1 scalar, and
  writes the 1024 × 2048 tile of the result at rows 1024·i …, columns 2048·j …. Entry (R, C) of what it writes is
  `bilin` at (R, C): Σ_q P[R, 64 + q] · P[C, q] plus the scalar. The 8 × 4 tiles cover the result (entry (R, C) lies
  in the tile of point 4·(R / 1024) + C / 2048), so after the region the whole result is `bilin` of the arrays the
  region was entered with.
-/
import proofs.«120709_j50500225466438_2_alg».proof.Proof.KI.Body1
import proofs.«120709_j50500225466438_2_alg».proof.Proof.Payload
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl

/-- The result as one function of the intermediate array `P` and the 1 × 1 scalar `s`: entry (R, C) pairs columns
    64–127 of row R with columns 0–63 of row C. -/
def bilin (P : FVec Ideal S8192x128 .f32) (s : FVec Ideal S1x1 .f32) : FVec Ideal S8192x8192 .f32 := fun i =>
  (∑ q : Fin 64, P (ix2 (⟨(i 0).val, (i 0).isLt⟩ : Fin 8192) (⟨64 + q.val, by omega⟩ : Fin 128))
      * P (ix2 (⟨(i 1).val, (i 1).isLt⟩ : Fin 8192) (⟨q.val, by omega⟩ : Fin 128)))
    + s (ix2 (0 : Fin 1) (0 : Fin 1))

/-- One tile of the second kernel, over plain variables: if `x0` is rows 1024·Ti … of `P`, `x1` is rows 2048·Tj … of `P`
    and `x2` is the scalar, the stored tile at (r, c') is `bilin` at (1024·Ti + r, 2048·Tj + c'). -/
theorem block1 (P : FVec Ideal S8192x128 .f32) (s : FVec Ideal S1x1 .f32) (Ti Tj : Nat) (hTi : Ti < 8) (hTj : Tj < 4)
    (x0 : Vec Ideal S1024x128 .f32) (x1 : Vec Ideal S2048x128 .f32) (x2 : Vec Ideal S1x1 .f32)
    (h0 : ∀ (r : Fin 1024) (l : Fin 128), x0 (ix2 r l) = P (ix2 (⟨Ti * 1024 + r.val, by omega⟩ : Fin 8192) l))
    (h1 : ∀ (c' : Fin 2048) (l : Fin 128), x1 (ix2 c' l) = P (ix2 (⟨Tj * 2048 + c'.val, by omega⟩ : Fin 8192) l))
    (h2 : x2 (ix2 (0 : Fin 1) (0 : Fin 1)) = s (ix2 (0 : Fin 1) (0 : Fin 1)))
    (r : Fin 1024) (c' : Fin 2048) :
    k1_pay1 (F := Ideal) x0 x1 x2 (ix2 r c')
      = bilin P s (ix2 (⟨Ti * 1024 + r.val, by omega⟩ : Fin 8192) (⟨Tj * 2048 + c'.val, by omega⟩ : Fin 8192)) := by
  refine (Cert.Payload.pay1_apply x0 x1 x2 r c').trans ?_
  unfold bilin
  simp only [h0, h1, h2]

variable (V : (c : Dev nD) → (b : Ref sig .tc) → Buf (Elt Ideal) ((c : Thread nD τ).loc b))

/-- The printed index maps of the second kernel, decided over its 32 grid points (point t is row tile t / 4, column
    tile t % 4): the left factor's rows and the output's rows move with t / 4, the right factor's rows and the output's
    columns with t % 4, the scalar stays at block zero. -/
theorem idx_facts1 : ∀ t : Fin cfg1.N, win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = t.val % 4 :=
  (by decide +kernel : ∀ t : Fin grid1.N, _)

/-- The result after the second region, as one function of the arrays the region was entered with. -/
abbrev R1 (c : Dev nD) : FVec Ideal S8192x8192 .f32 := bilin (V c main_v2) (V c main_v1)

/-- WHAT POINT `t` WRITES BACK is tile `t` of `bilin`. -/
theorem flushed1_eq (c : Dev nD) (t : Fin cfg1.N) :
    (dat1 V c).flushed 3 t = ((cfg1.win 3).blk t).view.read (Elt Ideal) (R1 V c) := by
  show (cfg1.win 3).cut (grid1.coords t) ((dat1 V c).after 3 t) = _
  rw [after1_3]
  unfold out1_3
  rw [View.canon_unit_zero hz1]
  simp only [View.ld_unit_zero (S := S1024x128) hz1, View.ld_unit_zero (S := S2048x128) hz1, View.ld_unit_zero (S := S1x1) hz1]
  obtain ⟨e00, e01, e10, e11, e20, e21, e30, e31⟩ := idx_facts1 t
  have ht : t.val < 32 := lt_of_lt_of_eq t.isLt N_1
  funext y
  obtain ⟨r, c', rfl⟩ : ∃ (r : Fin 1024) (c' : Fin 2048), y = ix2 r c' := ⟨y 0, y 1, eq_ix2 y⟩
  show k1_pay1 (F := Ideal) (iblk1 V c 0 t) (iblk1 V c 1 t) (iblk1 V c 2 t) (ix2 r c')
    = R1 V c (((cfg1.win 3).blk t).view.emb (ix2 r c'))
  have hemb : ((cfg1.win 3).blk t).view.emb (ix2 r c')
      = ix2 (⟨t.val / 4 * 1024 + r.val, by omega⟩ : Fin 8192) (⟨t.val % 4 * 2048 + c'.val, by omega⟩ : Fin 8192) := by
    funext a; apply Fin.ext
    match a with
    | ⟨0, _⟩ => show win1_3.index t (0 : Fin 2) * 1024 + 1 * r.val = t.val / 4 * 1024 + r.val; omega
    | ⟨1, _⟩ => show win1_3.index t (1 : Fin 2) * 2048 + 1 * c'.val = t.val % 4 * 2048 + c'.val; omega
  rw [hemb]
  refine block1 (V c main_v2) (V c main_v1) (t.val / 4) (t.val % 4) (by omega) (by omega)
    (iblk1 V c 0 t) (iblk1 V c 1 t) (iblk1 V c 2 t) ?_ ?_ ?_ r c'
  · intro r l
    show V c main_v2 (((cfg1.win 0).blk t).view.emb (ix2 r l)) = _
    refine congrArg _ (funext fun a => Fin.ext ?_)
    match a with
    | ⟨0, _⟩ => show win1_0.index t (0 : Fin 2) * 1024 + 1 * r.val = t.val / 4 * 1024 + r.val; omega
    | ⟨1, _⟩ => show win1_0.index t (1 : Fin 2) * 128 + 1 * l.val = l.val; omega
  · intro c' l
    show V c main_v2 (((cfg1.win 1).blk t).view.emb (ix2 c' l)) = _
    refine congrArg _ (funext fun a => Fin.ext ?_)
    match a with
    | ⟨0, _⟩ => show win1_1.index t (0 : Fin 2) * 2048 + 1 * c'.val = t.val % 4 * 2048 + c'.val; omega
    | ⟨1, _⟩ => show win1_1.index t (1 : Fin 2) * 128 + 1 * l.val = l.val; omega
  · show V c main_v1 (((cfg1.win 2).blk t).view.emb (ix2 (0 : Fin 1) (0 : Fin 1))) = _
    refine congrArg _ (funext fun a => Fin.ext ?_)
    match a with
    | ⟨0, _⟩ => show win1_2.index t (0 : Fin 2) * 1 + 1 * 0 = 0; omega
    | ⟨1, _⟩ => show win1_2.index t (1 : Fin 2) * 1 + 1 * 0 = 0; omega

/-- An index of the result is in point `t`'s tile iff each coordinate is in the tile's range. -/
theorem mem_blk1 (t : Fin cfg1.N) (i : S8192x8192.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v3).slice (win1_3.rect t)).set ↔ _
  rw [View.set_slice_whole, Rect.mem_set_unit]
  exact Iff.rfl

/-- Every index of the result lies in the tile of some point: entry (R, C) in that of point 4·(R / 1024) + C / 2048. -/
theorem cover1 (i : S8192x8192.Idx) :
    ∃ t : Fin cfg1.N, (cfg1.win 3).flush t = true ∧ i ∈ ((cfg1.win 3).blk t).view.set := by
  have hi0 : (i 0).val < 8192 := idx2_lt0 i
  have hi1 : (i 1).val < 8192 := idx2_lt1 i
  let t : Fin cfg1.N := ⟨(i 0).val / 1024 * 4 + (i 1).val / 2048, lt_of_lt_of_eq (by omega : (i 0).val / 1024 * 4 + (i 1).val / 2048 < 32) N_1.symm⟩
  obtain ⟨e00, e01, e10, e11, e20, e21, e30, e31⟩ := idx_facts1 t
  have htv : t.val = (i 0).val / 1024 * 4 + (i 1).val / 2048 := rfl
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 2048 ≤ (i 1).val ∧ (i 1).val < win1_3.index t (1 : Fin 2) * 2048 + 2048
    omega

/-- THE RESULT after the second region is `bilin` of the intermediate array and the scalar the region was entered with. -/
theorem final1 (c : Dev nD) : (dat1 V c).arrAt 3 cfg1.N = R1 V c :=
  (dat1 V c).arrAt_eq_of_cover 3 (R1 V c) (fun t _ => flushed1_eq V c t) (cover1)

end Cert.KernelIdeal.Val

end
-- ==== Proof.KI.Value.lean ====
/-
  The idealized kernel's result is the specification.

  The run ends with the result buffer at what the second region leaves: `bilin` of the intermediate array and the
  1 × 1 scalar as that region found them. The scalar's buffer is the scalar argument recast as 1 × 1, and the
  intermediate array is what the first region left: `packed` of the input, the weight, the bias recast as a 1 × 64 row,
  and the compatibility matrix — none of which a host operation or a region has changed since launch. Reading the bias
  row back as a vector gives the bias argument itself. Then entry (R, C) of `bilin (packed …)` pairs column 64 + q of row
  R, which is `left R q`, with column q of row C, which is `proj C q`: the specification's `out R C`, term by term.
-/
import proofs.«120709_j50500225466438_2_alg».proof.Proof.KI.Run
import proofs.«120709_j50500225466438_2_alg».proof.Proof.KI.Val0
import proofs.«120709_j50500225466438_2_alg».proof.Proof.KI.Val1
import proofs.«120709_j50500225466438_2_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- After the host stretch the bias row's buffer is the bias argument recast as 1 × 64, -/
theorem v0_eq (c : Dev nD) : (W1 m c (Proc.devRef .tc main_v0) : S1x64.Idx → EReal)
    = shapeCast S1x64 (m ((c : Thread nD τ).loc main_arg2)) shapeCasts_S64_S1x64 := by
  dsimp only [W1, W0, hostOps0]; after_results; rfl
/-- and the scalar's buffer is the scalar argument recast as 1 × 1. -/
theorem v1_eq (c : Dev nD) : (W1 m c (Proc.devRef .tc main_v1) : S1x1.Idx → EReal)
    = shapeCast S1x1 (m ((c : Thread nD τ).loc main_arg4)) shapeCasts_S_S1x1 := by
  dsimp only [W1, W0, hostOps0]; after_results; rfl

/-- The bias row read back as a vector is the bias argument. -/
theorem row_eq (c : Dev nD) : rowOf (U1 m c main_v0) = m ((c : Thread nD τ).loc main_arg2) := by
  funext j
  obtain ⟨p, rfl⟩ : ∃ p : Fin 64, j = ix1 p := ⟨j 0, eq_ix1 j⟩
  show (W1 m c (Proc.devRef .tc main_v0) : S1x64.Idx → EReal) (ix2 (0 : Fin 1) p) = _
  rw [v0_eq]
  exact shapeCast_a_1a_apply _ _ 0 p

/-- The 1 × 1 scalar's one entry is the scalar argument's. -/
theorem scalar_eq (c : Dev nD) : U2 m c main_v1 (ix2 (0 : Fin 1) (0 : Fin 1)) = m ((c : Thread nD τ).loc main_arg4) ix0 := by
  show W2 m c (Proc.devRef .tc main_v1) (ix2 (0 : Fin 1) (0 : Fin 1)) = _
  rw [W2_of_ne m c main_v1 (by decide)]
  show (W1 m c (Proc.devRef .tc main_v1) : S1x1.Idx → EReal) (ix2 (0 : Fin 1) (0 : Fin 1)) = _
  rw [v1_eq]
  refine shapeCast_apply _ _ _ ix0 ?_
  rw [Shape.rowMajor_val_two]
  have h := (S_.rowMajor ix0).isLt
  have hn : S_.numel = 1 := by decide
  show (S_.rowMajor ix0).val = 0 * 1 + 0
  omega

/-- The intermediate array the second region finds is `packed` of the launch arguments. -/
theorem packed_eq (c : Dev nD) : U2 m c main_v2
    = Cert.Spec.packed (m ((c : Thread nD τ).loc main_arg0)) (m ((c : Thread nD τ).loc main_arg1))
        (m ((c : Thread nD τ).loc main_arg2)) (m ((c : Thread nD τ).loc main_arg3)) := by
  show W2 m c (Proc.devRef .tc (Pipeline.arrRef spec0 4)) = _
  rw [W2_arr, final0 (U1 m) c]
  show Cert.Spec.packed (U1 m c main_arg0) (U1 m c main_arg1) (rowOf (U1 m c main_v0)) (U1 m c main_arg3) = _
  rw [row_eq,
    show U1 m c main_arg0 = m ((c : Thread nD τ).loc main_arg0) from (V1_of m c main_arg0 (by decide)).trans rfl,
    show U1 m c main_arg1 = m ((c : Thread nD τ).loc main_arg1) from (V1_of m c main_arg1 (by decide)).trans rfl,
    show U1 m c main_arg3 = m ((c : Thread nD τ).loc main_arg3) from (V1_of m c main_arg3 (by decide)).trans rfl]

/-- THE RESULT: after the run the result buffer holds the specification's `result` of the launch arguments. -/
theorem result_eq (c : Dev nD) : W4 m c (Proc.devRef .tc main_v3)
    = Cert.Spec.result (m ((c : Thread nD τ).loc main_arg0)) (m ((c : Thread nD τ).loc main_arg1))
        (m ((c : Thread nD τ).loc main_arg2)) (m ((c : Thread nD τ).loc main_arg3)) (m ((c : Thread nD τ).loc main_arg4)) := by
  rw [W4_v3, final1 (U2 m) c]
  show bilin (U2 m c main_v2) (U2 m c main_v1) = _
  rw [packed_eq]
  funext i
  obtain ⟨r, c', rfl⟩ : ∃ (r c' : Fin 8192), i = ix2 r c' := ⟨i 0, i 1, eq_ix2 i⟩
  show (∑ q : Fin 64, Cert.Spec.packed (m ((c : Thread nD τ).loc main_arg0)) (m ((c : Thread nD τ).loc main_arg1))
          (m ((c : Thread nD τ).loc main_arg2)) (m ((c : Thread nD τ).loc main_arg3)) (ix2 r (⟨64 + q.val, by omega⟩ : Fin 128))
        * Cert.Spec.packed (m ((c : Thread nD τ).loc main_arg0)) (m ((c : Thread nD τ).loc main_arg1))
          (m ((c : Thread nD τ).loc main_arg2)) (m ((c : Thread nD τ).loc main_arg3)) (ix2 c' (⟨q.val, by omega⟩ : Fin 128)))
      + U2 m c main_v1 (ix2 (0 : Fin 1) (0 : Fin 1))
    = Cert.Spec.out _ _ _ _ _ r c'
  rw [scalar_eq]
  unfold Cert.Spec.out
  refine congrArg (· + _) (Finset.sum_congr rfl fun q _ => ?_)
  unfold Cert.Spec.packed
  rw [dif_neg (show ¬ ((ix2 r (⟨64 + q.val, by omega⟩ : Fin 128)) 1).val < 64 from by show ¬ 64 + q.val < 64; omega),
    dif_pos (show ((ix2 c' (⟨q.val, by omega⟩ : Fin 128)) 1).val < 64 from q.isLt)]
  refine congrArg₂ (· * ·) (congrArg _ (Fin.ext ?_)) rfl
  show 64 + q.val - 64 = q.val
  omega

/-- THE RUN at the ideal instance, read: every weakly fair execution terminates, the result buffer at the
    specification's `result` of the launch arguments, the arguments as launched. -/
theorem run : θ_run defs (onTc (τ := τ) (main (F := Ideal))) ⟨m, fun _ => 0, ρ⟩ (fun r => ∀ c : Dev nD,
      r.2.mem ((c.tc : Thread nD τ).loc main_v3)
        = Cert.Spec.result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (result_eq m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Val

end
-- ==== Proof.RefValue.lean ====
/-
  The reference program's result is the specification.

  The reference forms  projected = x · wᵀ + b,  then  (projected · cw) · projectedᵀ + cb  as whole matrix products.
  Read at an index, each product is a plain sum over the contracted axis, each transpose swaps the two coordinates, and each
  broadcast forgets the coordinates it does not depend on. So entry (r, p) of the projection stage is
  (Σ_k x[r,k] · w[p,k]) + b[p], entry (r, q) of the second product is Σ_p proj r p · cw[p,q], and entry (r, c) of the result
  is (Σ_q left r q · proj c q) + cb: term by term the specification's three sums, in the same grouping.
-/
import proofs.«120709_j50500225466438_2_alg».proof.Proof.Gen.ReferenceIdeal.Read
import proofs.«120709_j50500225466438_2_alg».proof.Proof.Spec
import Idealize.ShloMosaic.PureOps.Ideal
import Idealize.ShloMosaic.Lib.ValueIdx

noncomputable section

namespace Cert.RefValue

open Cert.ReferenceIdeal Cert.ReferenceIdeal.Read Idealize.ShloMosaic Idealize.ShloMosaic.ValueIdx

variable [Cert.ReferenceIdeal.Facts]

variable (x0 : (⟨S8192x1024, .f32⟩ : BufTy).Contents (Elt Ideal)) (x1 : (⟨S64x1024, .f32⟩ : BufTy).Contents (Elt Ideal))
  (x2 : (⟨S64, .f32⟩ : BufTy).Contents (Elt Ideal)) (x3 : (⟨S64x64, .f32⟩ : BufTy).Contents (Elt Ideal))
  (x4 : (⟨S_, .f32⟩ : BufTy).Contents (Elt Ideal))

/-- Entry (r, p) of the projection stage  x · wᵀ + b  is  (Σ_k x[r,k] · w[p,k]) + b[p]:  the transpose of w read at (k, p)
    is w at (p, k), and the bias broadcast over rows read at (r, p) is b at p. -/
theorem proj_at (r : Fin 8192) (p : Fin 64) :
    val_main_v4 (F := Ideal) x0 x1 x2 (ix2 r p) = Cert.Spec.proj x0 x1 x2 r p := by
  have el : ∀ k : Fin 1024, lidx_main_v1 (ix2 r p) k = ix2 r k := fun k =>
    funext fun a => Fin.ext (by match a with | ⟨0, _⟩ => rfl | ⟨1, _⟩ => rfl)
  have er : ∀ k : Fin 1024, idx_main_v0 (ridx_main_v1 (ix2 r p) k) = ix2 p k := fun k =>
    funext fun a => Fin.ext (by match a with | ⟨0, _⟩ => rfl | ⟨1, _⟩ => rfl)
  have eb : idx_main_v2 (idx_main_v3 (ix2 r p)) = ix1 p :=
    funext fun a => Fin.ext (by match a with | ⟨0, _⟩ => rfl)
  rw [val_main_v4_apply, val_main_v1_apply, val_main_v3_apply, val_main_v2_apply, Ideal.addf_def, eb]
  unfold Cert.Spec.proj
  refine congrArg (· + x2 (ix1 p)) (Finset.sum_congr rfl fun k _ => ?_)
  rw [val_main_v0_apply, el, er]

/-- Entry (r, q) of the second product  projected · cw  is  Σ_p proj r p · cw[p,q]. -/
theorem left_at (r : Fin 8192) (q : Fin 64) :
    val_main_v5 (F := Ideal) x0 x1 x2 x3 (ix2 r q) = Cert.Spec.left x0 x1 x2 x3 r q := by
  have el : ∀ k : Fin 64, lidx_main_v5 (ix2 r q) k = ix2 r k := fun k =>
    funext fun a => Fin.ext (by match a with | ⟨0, _⟩ => rfl | ⟨1, _⟩ => rfl)
  have er : ∀ k : Fin 64, ridx_main_v5 (ix2 r q) k = ix2 k q := fun k =>
    funext fun a => Fin.ext (by match a with | ⟨0, _⟩ => rfl | ⟨1, _⟩ => rfl)
  rw [val_main_v5_apply]
  unfold Cert.Spec.left
  refine Finset.sum_congr rfl fun k _ => ?_
  rw [el, er, proj_at]

/-- Entry (q, c) of the transposed projection is  proj c q. -/
theorem projT_at (q : Fin 64) (c : Fin 8192) :
    val_main_v6 (F := Ideal) x0 x1 x2 (ix2 q c) = Cert.Spec.proj x0 x1 x2 c q := by
  have e : idx_main_v6 (ix2 q c) = ix2 c q :=
    funext fun a => Fin.ext (by match a with | ⟨0, _⟩ => rfl | ⟨1, _⟩ => rfl)
  rw [val_main_v6_apply, e, proj_at]

/-- The reference's result array is the specification's: entry (r, c) is  (Σ_q left r q · proj c q) + cb. -/
theorem ref_eq :
    val_main_v9 (F := Ideal) x0 x1 x2 x3 x4 = Cert.Spec.result x0 x1 x2 x3 x4 := by
  funext i
  obtain ⟨r, c, rfl⟩ : ∃ (r : Fin 8192) (c : Fin 8192), i = ix2 r c := ⟨i 0, i 1, eq_ix2 i⟩
  have el : ∀ k : Fin 64, lidx_main_v7 (ix2 r c) k = ix2 r k := fun k =>
    funext fun a => Fin.ext (by match a with | ⟨0, _⟩ => rfl | ⟨1, _⟩ => rfl)
  have er : ∀ k : Fin 64, ridx_main_v7 (ix2 r c) k = ix2 k c := fun k =>
    funext fun a => Fin.ext (by match a with | ⟨0, _⟩ => rfl | ⟨1, _⟩ => rfl)
  have eb : idx_main_v8 (ix2 r c) = ix0 := funext fun a => a.elim0
  rw [val_main_v9_apply, val_main_v7_apply, val_main_v8_apply, Ideal.addf_def, eb]
  show _ = Cert.Spec.out x0 x1 x2 x3 x4 r c
  unfold Cert.Spec.out
  refine congrArg (· + x4 ix0) (Finset.sum_congr rfl fun k _ => ?_)
  rw [el, er, left_at, projT_at]

end Cert.RefValue

end
-- ==== Proof.lean ====
/-
  The certificate of the projected-bilinear kernel against its reference.

  With x : 8192 × 1024, w : 64 × 1024, b : 64, cw : 64 × 64 and a scalar cb, both programs compute the 8192 × 8192 array
      out[r, c] = (Σ_q (Σ_p proj[r, p] · cw[p, q]) · proj[c, q]) + cb,     proj[r, p] = (Σ_k x[r, k] · w[p, k]) + b[p].
  The kernel does it in two tiled passes: the first writes proj and proj · cw side by side into one 8192 × 128
  intermediate array, 1024 rows per grid point; the second pairs a 1024-row block with a 2048-row block of that array and
  writes one 1024 × 2048 tile of the result per grid point. The reference forms the same sums as three whole matrix
  products. Over the extended reals a change of float format is the identity and a matrix product into a zero accumulator
  is the plain sum over its contracted axis, so the two sides are the same sums in the same grouping: no rearrangement is
  used, and the finiteness of the inputs is never needed.

  * The frames of the two kernel programs: @main is a host stretch and two kernel regions, run as a list of segments;
    each region's pipeline is given its proof data and its body's triple, and the second region, two of whose windows read
    one array, holds that array at two complementary half shares (Proof/K, Proof/KI: Body0, Body1, Share1, Run).
  * The reference's frame is its run with the result dropped.
  * The ideal pass rewrote nothing, so `preserves` is trivial.
  * `algebraic`: the idealized kernel's run ends with the result at the specification's `result` of the arguments
    (Proof/KI/Val0, Val1, Value, over Proof/Payload), and so does the reference's (Proof/RefValue).
-/
import proofs.«120709_j50500225466438_2_alg».proof.Defs
import proofs.«120709_j50500225466438_2_alg».proof.Proof.Gen.Kernel
import proofs.«120709_j50500225466438_2_alg».proof.Proof.Gen.KernelIdeal
import proofs.«120709_j50500225466438_2_alg».proof.Proof.Gen.ReferenceIdeal
import proofs.«120709_j50500225466438_2_alg».proof.Proof.Gen.ReferenceIdeal.Run
import proofs.«120709_j50500225466438_2_alg».proof.Proof.Gen.ReferenceIdeal.Read
import proofs.«120709_j50500225466438_2_alg».proof.Proof.Gen.Pre_finite_inputs
import proofs.«120709_j50500225466438_2_alg».proof.Proof.K.Run
import proofs.«120709_j50500225466438_2_alg».proof.Proof.KI.Value
import proofs.«120709_j50500225466438_2_alg».proof.Proof.RefValue
import Idealize.ShloMosaic.Adequacy
import Idealize.ShloMosaic.Init

noncomputable section

namespace Cert.Proof

open Idealize.ShloMosaic Idealize.SL.Sem

/-- The word-level kernel runs to the end, nothing faulting, its arguments unchanged. -/
theorem frame_k : Cert.frame_Kernel := fun m ρ _ => Cert.Kernel.Frame.frame (F := Bits) m ρ

/-- So does the idealized kernel. -/
theorem frame_ki : Cert.frame_KernelIdeal := fun m ρ _ => Cert.KernelIdeal.Frame.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories agreeing on the arguments, the idealized kernel and the idealized reference both end with the
    result at the specification's `result` of those arguments. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Val.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
